-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_7" .f32 0x3E124925#32 ((1 / 7 : ℝ) : EReal)
  ∧ IdealRules.named_const.Statement Cert.KernelIdeal.κ "inv_7" .f32 0x3E124925#32 ((1 / 7 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S32000x4096 : Shape := ⟨2, ![32000, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S32000x4096 : S_.BroadcastsInDim S32000x4096 (![] : Fin 0 → Fin S32000x4096.rank)
  reducesTo_S32000x4096_S_d0_1 : S32000x4096.ReducesTo [0, 1] S_

variable [Facts]

def fn {F : FTy → Type} [FloatOps F] (main_arg0 : FVec F S2x2048x4096 .f32) (main_arg1 : FVec F S32000x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  main_v8
-- ==== Kernel.lean ====
abbrev S2x2048x4096 : Shape := ⟨3, ![2, 2048, 4096]⟩
abbrev S32000x4096 : Shape := ⟨2, ![32000, 4096]⟩
abbrev S4096x4096 : Shape := ⟨2, ![4096, 4096]⟩
abbrev S4096x32000 : Shape := ⟨2, ![4096, 32000]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S512x4096 : Shape := ⟨2, ![512, 4096]⟩
abbrev S4096x1280 : Shape := ⟨2, ![4096, 1280]⟩
abbrev S512x1280 : Shape := ⟨2, ![512, 1280]⟩
abbrev S2x2048x32000 : Shape := ⟨3, ![2, 2048, 32000]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x4096, .f32⟩
  | .hbm, ⟨1, _⟩ => ⟨S32000x4096, .f32⟩
  | .hbm, ⟨2, _⟩ => ⟨S4096x4096, .f32⟩
  | .hbm, ⟨3, _⟩ => ⟨S4096x32000, .bf16⟩
  | .hbm, ⟨4, _⟩ => ⟨S4096x4096, .bf16⟩
  | .hbm, ⟨5, _⟩ => ⟨S4096x32000, .f32⟩
  | .hbm, ⟨6, _⟩ => ⟨S2x2048x32000, .f32⟩
  | .local _ .vmem, ⟨0, _⟩ => ⟨S256x4096, .f32⟩
  | .local _ .vmem, ⟨1, _⟩ => ⟨S256x4096, .f32⟩
  | .local _ .vmem, ⟨2, _⟩ => ⟨S4096x256, .bf16⟩
  | .local _ .vmem, ⟨3, _⟩ => ⟨S4096x256, .bf16⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S512x4096, .bf16⟩
  | .local _ .vmem, ⟨9, _⟩ => ⟨S512x4096, .bf16⟩
  | .local _ .vmem, ⟨10, _⟩ => ⟨S4096x1280, .bf16⟩
  | .local _ .vmem, ⟨11, _⟩ => ⟨S4096x1280, .bf16⟩
  | .local _ .vmem, ⟨12, _⟩ => ⟨S512x1280, .f32⟩
  | .local _ .vmem, ⟨13, _⟩ => ⟨S512x1280, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![25, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S2x2048x4096_S4096x4096 : S2x2048x4096.ShapeCasts S4096x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  transposes_S256x4096_p1_0_S4096x256 : S256x4096.Transposes [1, 0] S4096x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  shapeCasts_S256x4096_S256x4096 : S256x4096.ShapeCasts S256x4096
  reduces_S256x4096_S4096 : S256x4096.Reduces [0] S4096
  shapeCasts_S4096_S1x4096 : S4096.ShapeCasts S1x4096
  reduces_S1x4096_S1 : S1x4096.Reduces [1] S1
  shapeCasts_S1_S1x1 : S1.ShapeCasts S1x1
  broadcasts_S1x1_S1x4096 : S1x1.Broadcasts S1x4096
  natLt_1_32 : 1 < 32
  broadcasts_S1x4096_S256x4096 : S1x4096.Broadcasts S256x4096
  packedbf16_S256x4096_S256x4096_0_0 : (Rect.unit (s := S256x4096) ![0, 0] S256x4096.size inb_S256x4096_S256x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1280_S4096x1280_0_0 : ∀ a, (![0, 0] : Fin 2 → Nat) a + S4096x1280.size a ≤ S4096x1280.size a
  h_S4096x1280 : 0 < S4096x1280.numel
  shapeCasts_S4096x1280_S4096x1280 : S4096x1280.ShapeCasts S4096x1280
  inb_S512x1280_S512x1280_0_0 : ∀ a, (![0, 0] : Fin 2 → Nat) a + S512x1280.size a ≤ S512x1280.size a
  h_S512x1280 : 0 < S512x1280.numel
  shapeCasts_S4096x32000_S2x2048x32000 : S4096x32000.ShapeCasts S2x2048x32000
  dot_S512x4096_S4096x1280_S512x1280_1_0_0_1_n_n_wf : DotDims.WF S512x4096 S4096x1280 S512x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S32000x4096.size a
  hwx0_0 : ∀ i : grid0.Coords, EltTy.bits .f32 = 32 ∨ (Rect.block (s := S32000x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x32000.size a
  hwx0_1 : ∀ i : grid0.Coords, EltTy.bits .bf16 = 32 ∨ (Rect.block (s := S4096x32000) S4096x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .bf16 = 32 ∨ (Rect.block (s := S4096x4096) S256x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1280.size a ≤ S4096x32000.size a
  hwx2_1 : ∀ i : grid2.Coords, EltTy.bits .bf16 = 32 ∨ (Rect.block (s := S4096x32000) S4096x1280.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1280.size a ≤ S4096x32000.size a
  hwx2_2 : ∀ i : grid2.Coords, EltTy.bits .f32 = 32 ∨ (Rect.block (s := S4096x32000) S512x1280.size (cc2_transform_2 i) (hinb2_2 i)).WholeWords (EltTy.packing .f32)

variable [Facts₀]

def dot_S512x4096_S4096x1280_S512x1280_1_0_0_1_n_n : DotDims S512x4096 S4096x1280 S512x1280 where
  lhsContracting := [1]
  rhsContracting := [0]
  lhsNonContracting := [0]
  rhsNonContracting := [1]
  lhsBatch := []
  rhsBatch := []
  wf := dot_S512x4096_S4096x1280_S512x1280_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S4096x1280.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1280.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x4096 : Shape := ⟨3, ![2, 2048, 4096]⟩
abbrev S32000x4096 : Shape := ⟨2, ![32000, 4096]⟩
abbrev S_ : Shape := ⟨0, ![]⟩
abbrev S32000 : Shape := ⟨1, ![32000]⟩
abbrev S32000x1 : Shape := ⟨2, ![32000, 1]⟩
abbrev S4096x32000 : Shape := ⟨2, ![4096, 32000]⟩
abbrev S4096x4096 : Shape := ⟨2, ![4096, 4096]⟩
abbrev S16x256x4096 : Shape := ⟨3, ![16, 256, 4096]⟩
abbrev S16 : Shape := ⟨1, ![16]⟩
abbrev S16x4096 : Shape := ⟨2, ![16, 4096]⟩
abbrev S13 : Shape := ⟨1, ![13]⟩
abbrev S16x1 : Shape := ⟨2, ![16, 1]⟩
abbrev S1x13 : Shape := ⟨2, ![1, 13]⟩
abbrev S16x13 : Shape := ⟨2, ![16, 13]⟩
abbrev S16x4096x1 : Shape := ⟨3, ![16, 4096, 1]⟩
abbrev S16x1x13 : Shape := ⟨3, ![16, 1, 13]⟩
abbrev S16x4096x13 : Shape := ⟨3, ![16, 4096, 13]⟩
abbrev S16x1x4096 : Shape := ⟨3, ![16, 1, 4096]⟩
abbrev S16x256x32000 : Shape := ⟨3, ![16, 256, 32000]⟩
abbrev S2x2048x32000 : Shape := ⟨3, ![2, 2048, 32000]⟩

abbrev nBuf : Space → Nat
  | .hbm => 96
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S32000x4096, .f32⟩
  | .hbm, ⟨2, _⟩ => ⟨S32000x4096, .f32⟩
  | .hbm, ⟨3, _⟩ => ⟨S_, .f32⟩
  | .hbm, ⟨4, _⟩ => ⟨S32000, .f32⟩
  | .hbm, ⟨5, _⟩ => ⟨S32000x1, .f32⟩
  | .hbm, ⟨6, _⟩ => ⟨S_, .f32⟩
  | .hbm, ⟨7, _⟩ => ⟨S32000x1, .f32⟩
  | .hbm, ⟨8, _⟩ => ⟨S32000x1, .f32⟩
  | .hbm, ⟨9, _⟩ => ⟨S32000x1, .f32⟩
  | .hbm, ⟨10, _⟩ => ⟨S_, .f32⟩
  | .hbm, ⟨11, _⟩ => ⟨S_, .f32⟩
  | .hbm, ⟨12, _⟩ => ⟨S32000x1, .f32⟩
  | .hbm, ⟨13, _⟩ => ⟨S32000x1, .f32⟩
  | .hbm, ⟨14, _⟩ => ⟨S32000x4096, .f32⟩
  | .hbm, ⟨15, _⟩ => ⟨S32000x4096, .f32⟩
  | .hbm, ⟨16, _⟩ => ⟨S32000x4096, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S32000x4096, .f32⟩
  | .hbm, ⟨21, _⟩ => ⟨S32000x4096, .f32⟩
  | .hbm, ⟨22, _⟩ => ⟨S_, .f32⟩
  | .hbm, ⟨23, _⟩ => ⟨S32000x4096, .f32⟩
  | .hbm, ⟨24, _⟩ => ⟨S32000x4096, .f32⟩
  | .hbm, ⟨25, _⟩ => ⟨S32000x4096, .f32⟩
  | .hbm, ⟨26, _⟩ => ⟨S32000x4096, .f32⟩
  | .hbm, ⟨27, _⟩ => ⟨S4096x32000, .f32⟩
  | .hbm, ⟨28, _⟩ => ⟨S4096x4096, .f32⟩
  | .hbm, ⟨29, _⟩ => ⟨S_, .i32⟩
  | .hbm, ⟨30, _⟩ => ⟨S_, .f32⟩
  | .hbm, ⟨31, _⟩ => ⟨S4096x4096, .f32⟩
  | .hbm, ⟨32, _⟩ => ⟨S16x256x4096, .f32⟩
  | .hbm, ⟨33, _⟩ => ⟨S16x256x4096, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S16x4096, .f32⟩
  | .hbm, ⟨38, _⟩ => ⟨S13, .i32⟩
  | .hbm, ⟨39, _⟩ => ⟨S16x1, .f32⟩
  | .hbm, ⟨40, _⟩ => ⟨S_, .i32⟩
  | .hbm, ⟨41, _⟩ => ⟨S13, .i32⟩
  | .hbm, ⟨42, _⟩ => ⟨S13, .i32⟩
  | .hbm, ⟨43, _⟩ => ⟨S13, .f32⟩
  | .hbm, ⟨44, _⟩ => ⟨S_, .f32⟩
  | .hbm, ⟨45, _⟩ => ⟨S13, .f32⟩
  | .hbm, ⟨46, _⟩ => ⟨S13, .f32⟩
  | .hbm, ⟨47, _⟩ => ⟨S13, .f32⟩
  | .hbm, ⟨48, _⟩ => ⟨S1x13, .f32⟩
  | .hbm, ⟨49, _⟩ => ⟨S16x13, .f32⟩
  | .hbm, ⟨50, _⟩ => ⟨S16x13, .f32⟩
  | .hbm, ⟨51, _⟩ => ⟨S16x13, .f32⟩
  | .hbm, ⟨52, _⟩ => ⟨S16x4096x1, .f32⟩
  | .hbm, ⟨53, _⟩ => ⟨S16x1x13, .f32⟩
  | .hbm, ⟨54, _⟩ => ⟨S16x4096x13, .f32⟩
  | .hbm, ⟨55, _⟩ => ⟨S16x4096x13, .f32⟩
  | .hbm, ⟨56, _⟩ => ⟨S16x4096x13, .i1⟩
  | .hbm, ⟨57, _⟩ => ⟨S16x4096x13, .i32⟩
  | .hbm, ⟨58, _⟩ => ⟨S_, .i32⟩
  | .hbm, ⟨59, _⟩ => ⟨S16x4096, .i32⟩
  | .hbm, ⟨60, _⟩ => ⟨S16x1, .f32⟩
  | .hbm, ⟨61, _⟩ => ⟨S_, .i32⟩
  | .hbm, ⟨62, _⟩ => ⟨S16x4096, .i32⟩
  | .hbm, ⟨63, _⟩ => ⟨S16x4096, .i32⟩
  | .hbm, ⟨64, _⟩ => ⟨S16x4096, .f32⟩
  | .hbm, ⟨65, _⟩ => ⟨S_, .f32⟩
  | .hbm, ⟨66, _⟩ => ⟨S16x4096, .f32⟩
  | .hbm, ⟨67, _⟩ => ⟨S16x4096, .f32⟩
  | .hbm, ⟨68, _⟩ => ⟨S16x4096, .f32⟩
  | .hbm, ⟨69, _⟩ => ⟨S16x4096, .f32⟩
  | .hbm, ⟨70, _⟩ => ⟨S16x4096, .f32⟩
  | .hbm, ⟨71, _⟩ => ⟨S_, .f32⟩
  | .hbm, ⟨72, _⟩ => ⟨S16x4096, .f32⟩
  | .hbm, ⟨73, _⟩ => ⟨S16x4096, .f32⟩
  | .hbm, ⟨74, _⟩ => ⟨S16x1x4096, .f32⟩
  | .hbm, ⟨75, _⟩ => ⟨S16x1x4096, .f32⟩
  | .hbm, ⟨76, _⟩ => ⟨S_, .f32⟩
  | .hbm, ⟨77, _⟩ => ⟨S_, .f32⟩
  | .hbm, ⟨78, _⟩ => ⟨S16x1x4096, .f32⟩
  | .hbm, ⟨79, _⟩ => ⟨S16x1x4096, .f32⟩
  | .hbm, ⟨80, _⟩ => ⟨S16x256x4096, .f32⟩
  | .hbm, ⟨81, _⟩ => ⟨S16x256x4096, .f32⟩
  | .hbm, ⟨82, _⟩ => ⟨S16x256x4096, .f32⟩
  | .hbm, ⟨83, _⟩ => ⟨S_, .i32⟩
  | .hbm, ⟨84, _⟩ => ⟨S_, .i32⟩
  | .hbm, ⟨85, _⟩ => ⟨S_, .f32⟩
  | .hbm, ⟨86, _⟩ => ⟨S16x256x4096, .f32⟩
  | .hbm, ⟨87, _⟩ => ⟨S16x256x4096, .f32⟩
  | .hbm, ⟨88, _⟩ => ⟨S_, .f32⟩
  | .hbm, ⟨89, _⟩ => ⟨S16x256x4096, .f32⟩
  | .hbm, ⟨90, _⟩ => ⟨S16x256x4096, .f32⟩
  | .hbm, ⟨91, _⟩ => ⟨S16x256x4096, .f32⟩
  | .hbm, ⟨92, _⟩ => ⟨S16x256x4096, .f32⟩
  | .hbm, ⟨93, _⟩ => ⟨S16x256x32000, .f32⟩
  | .hbm, ⟨94, _⟩ => ⟨S4096x32000, .f32⟩
  | .hbm, ⟨95, _⟩ => ⟨S2x2048x32000, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_2 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_call3_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_call4_v0 : Ref sig .tc := ⟨.hbm, 77, rfl⟩
abbrev main_call4_v1 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_c_14 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩

abbrev nD : Nat := 1
abbrev τ : Topo := Topo.v7x

variable {F : FTy → Type} [FloatOps F]

class Facts₀ : Prop where
  reducesTo_S32000x4096_S32000_d1 : S32000x4096.ReducesTo [1] S32000
  h_S_ : 0 < S_.numel
  bcast_S32000_S32000x1_0 : S32000.BroadcastsInDim S32000x1 (![0] : Fin 1 → Fin S32000x1.rank)
  bcast_S_S32000x1 : S_.BroadcastsInDim S32000x1 (![] : Fin 0 → Fin S32000x1.rank)
  bcast_S32000x1_S32000x4096_0_1 : S32000x1.BroadcastsInDim S32000x4096 (![0, 1] : Fin 2 → Fin S32000x4096.rank)
  bcast_S_S32000x4096 : S_.BroadcastsInDim S32000x4096 (![] : Fin 0 → Fin S32000x4096.rank)
  transposes_S32000x4096_S4096x32000_1_0 : S32000x4096.Transposes [1, 0] S4096x32000
  shapeCasts_S2x2048x4096_S4096x4096 : S2x2048x4096.ShapeCasts S4096x4096
  pads_S4096x4096_S4096x4096_000_000 : S4096x4096.Pads (![0, 0] : Fin 2 → Nat) ![0, 0] ![0, 0] S4096x4096
  shapeCasts_S4096x4096_S16x256x4096 : S4096x4096.ShapeCasts S16x256x4096
  reducesTo_S16x256x4096_S16_d1_2 : S16x256x4096.ReducesTo [1, 2] S16
  reducesTo_S16x256x4096_S16x4096_d1 : S16x256x4096.ReducesTo [1] S16x4096
  bcast_S16_S16x1_0 : S16.BroadcastsInDim S16x1 (![0] : Fin 1 → Fin S16x1.rank)
  bcast_S_S13 : S_.BroadcastsInDim S13 (![] : Fin 0 → Fin S13.rank)
  bcast_S13_S1x13_1 : S13.BroadcastsInDim S1x13 (![1] : Fin 1 → Fin S1x13.rank)
  bcast_S16x1_S16x13_0_1 : S16x1.BroadcastsInDim S16x13 (![0, 1] : Fin 2 → Fin S16x13.rank)
  bcast_S1x13_S16x13_0_1 : S1x13.BroadcastsInDim S16x13 (![0, 1] : Fin 2 → Fin S16x13.rank)
  bcast_S16x4096_S16x4096x1_0_1 : S16x4096.BroadcastsInDim S16x4096x1 (![0, 1] : Fin 2 → Fin S16x4096x1.rank)
  bcast_S16x13_S16x1x13_0_2 : S16x13.BroadcastsInDim S16x1x13 (![0, 2] : Fin 2 → Fin S16x1x13.rank)
  bcast_S16x4096x1_S16x4096x13_0_1_2 : S16x4096x1.BroadcastsInDim S16x4096x13 (![0, 1, 2] : Fin 3 → Fin S16x4096x13.rank)
  bcast_S16x1x13_S16x4096x13_0_1_2 : S16x1x13.BroadcastsInDim S16x4096x13 (![0, 1, 2] : Fin 3 → Fin S16x4096x13.rank)
  natLt_1_32 : 1 < 32
  reducesTo_S16x4096x13_S16x4096_d2 : S16x4096x13.ReducesTo [2] S16x4096
  bcast_S_S16x4096 : S_.BroadcastsInDim S16x4096 (![] : Fin 0 → Fin S16x4096.rank)
  bcast_S16x1_S16x4096_0_1 : S16x1.BroadcastsInDim S16x4096 (![0, 1] : Fin 2 → Fin S16x4096.rank)
  bcast_S16x4096_S16x1x4096_0_2 : S16x4096.BroadcastsInDim S16x1x4096 (![0, 2] : Fin 2 → Fin S16x1x4096.rank)
  bcast_S_S16x1x4096 : S_.BroadcastsInDim S16x1x4096 (![] : Fin 0 → Fin S16x1x4096.rank)
  bcast_S16x1x4096_S16x256x4096_0_1_2 : S16x1x4096.BroadcastsInDim S16x256x4096 (![0, 1, 2] : Fin 3 → Fin S16x256x4096.rank)
  bcast_S_S16x256x4096 : S_.BroadcastsInDim S16x256x4096 (![] : Fin 0 → Fin S16x256x4096.rank)
  shapeCasts_S16x256x32000_S4096x32000 : S16x256x32000.ShapeCasts S4096x32000
  shapeCasts_S4096x32000_S2x2048x32000 : S4096x32000.ShapeCasts S2x2048x32000
  dot_S16x256x4096_S4096x32000_S16x256x32000_2_0_01_1_n_n_wf : DotDims.WF S16x256x4096 S4096x32000 S16x256x32000 [2] [0] [0, 1] [1] [] []

variable [Facts₀]

def dot_S16x256x4096_S4096x32000_S16x256x32000_2_0_01_1_n_n : DotDims S16x256x4096 S4096x32000 S16x256x32000 where
  lhsContracting := [2]
  rhsContracting := [0]
  lhsNonContracting := [0, 1]
  rhsNonContracting := [1]
  lhsBatch := []
  rhsBatch := []
  wf := dot_S16x256x4096_S4096x32000_S16x256x32000_2_0_01_1_n_n_wf

class Facts : Prop extends Facts₀ where

variable [Facts]
-- ==== Proof.KRun.lean ====
/-
  The kernel program's run with its result read.

  The program is five stretches: the host merges the activations' two leading axes, three kernels run one after the
  other, and the host splits the rows of the product back into [2, 2048].  The contents of every buffer at each
  boundary are a fold from the launch memory; this module states that every weakly fair execution terminates with
  the result buffer at the last fold and the two argument arrays as launched.
-/
import proofs.«171524_j8117488190107_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer holding the
    last boundary's contents and the two argument arrays as launched. -/
theorem run_value : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c)⟩)

end Cert.KernelIdeal.KValue

end
-- ==== Proof.Spec.lean ====
/-
  The function both programs compute, on the extended reals.

  A weight matrix W [32000, 4096] and activations X [4096, 4096] (the [2, 2048, 4096] input with its two leading
  axes merged) are each replaced by a sixteen-level approximation, and the result is the product of the two
  approximations.

  * A number x is quantized with step s as  qd x s = clamp(round-half-even(x / s), −8, 7) · s.
  * A step is always  scaleOf t = max(ε, |t · (1/7)|)  for a threshold t, ε the f32 word 0x3089705F.
  * For the weights the threshold of a row is the largest magnitude in the row.
  * The activations are cut into 16 chunks of 256 consecutive rows.  Within a chunk B, colMax B k is the largest
    magnitude of column k and chunkMax B the largest magnitude of the whole chunk.  Thirteen boundaries
    chunkMax B · 2^(i − 13), i = 0 … 12, split the columns into fourteen levels: the level of column k is the
    number of boundaries colMax B k strictly exceeds, and the column's threshold is chunkMax B · 2^(level − 13).
  * logits r v = ∑ₖ Xq r k · Wq k v.

  The quantities of one row of weights and of one chunk of activations are stated on plain coordinates (a row
  `Fin 4096 → EReal`, a chunk `Fin 256 → Fin 4096 → EReal`), the whole arrays' over them.
-/
import Idealize.ShloMosaic.PureOps.Ideal
import Idealize.ShloMosaic.Lib.ValueIdx

noncomputable section

namespace Cert.Spec

open Idealize.ShloMosaic Idealize.ShloMosaic.ValueIdx

/-- The smallest step. -/
def eps : EReal := Ideal.ofBits .f32 0x3089705F#32

/-- The magnitude of an extended real. -/
def mag (x : EReal) : EReal := max x (-x)

/-- Rounding to the nearest integer, a tie to the even one. -/
def rnd (x : EReal) : EReal := Ideal.liftRound Ideal.roundHalfEven x

/-- Quantize `x` with step `s` to one of the sixteen levels −8 … 7 and scale back. -/
def qd (x s : EReal) : EReal := min ((7 : ℝ) : EReal) (max ((-8 : ℝ) : EReal) (rnd (Ideal.div x s))) * s

/-- The step that belongs to a threshold. -/
def scaleOf (t : EReal) : EReal := max eps (mag (t * ((1 / 7 : ℝ) : EReal)))

/-- The largest of finitely many extended reals, `⊥` for none. -/
def maxOver {ι : Type} [Fintype ι] (f : ι → EReal) : EReal := Finset.univ.fold max ⊥ f

/-! ### One row of weights -/

/-- The step of a row of weights: from its largest magnitude. -/
def wscale (R : Fin 4096 → EReal) : EReal := scaleOf (maxOver fun k : Fin 4096 => mag (R k))

/-! ### One chunk of activations: 256 rows by 4096 columns -/

/-- The largest magnitude of column `k` of the chunk. -/
def colMax (B : Fin 256 → Fin 4096 → EReal) (k : Fin 4096) : EReal := maxOver fun j : Fin 256 => mag (B j k)

/-- The largest magnitude of the chunk. -/
def chunkMax (B : Fin 256 → Fin 4096 → EReal) : EReal := maxOver fun k : Fin 4096 => colMax B k

/-- The `i`-th boundary of the chunk: its largest magnitude times 2^(i − 13). -/
def boundary (B : Fin 256 → Fin 4096 → EReal) (i : Fin 13) : EReal :=
  chunkMax B * (((2 : ℝ) ^ ((i.val : ℤ) - 13) : ℝ) : EReal)

/-- The level of column `k`: how many boundaries its largest magnitude strictly exceeds. -/
def level (B : Fin 256 → Fin 4096 → EReal) (k : Fin 4096) : ℕ :=
  (Finset.univ.filter fun i : Fin 13 => boundary B i < colMax B k).card

/-- The column's threshold: the chunk's largest magnitude times 2^(level − 13). -/
def chanThr (B : Fin 256 → Fin 4096 → EReal) (k : Fin 4096) : EReal :=
  chunkMax B * (((2 : ℝ) ^ ((level B k : ℤ) - 13) : ℝ) : EReal)

/-- The step of column `k` of the chunk. -/
def xscale (B : Fin 256 → Fin 4096 → EReal) (k : Fin 4096) : EReal := scaleOf (chanThr B k)

/-! ### The whole arrays -/

/-- Row `v` of the weights. -/
def wrow (W : (⟨2, ![32000, 4096]⟩ : Shape).Idx → EReal) (v : Fin 32000) : Fin 4096 → EReal := fun k => W (ix2 v k)

/-- The approximated weights, transposed: entry (k, v). -/
def Wq (W : (⟨2, ![32000, 4096]⟩ : Shape).Idx → EReal) (k : Fin 4096) (v : Fin 32000) : EReal :=
  qd (W (ix2 v k)) (wscale (wrow W v))

/-- Row `j` of chunk `c`. -/
def rowOf (c : Fin 16) (j : Fin 256) : Fin 4096 := ⟨256 * c.val + j.val, by have := c.isLt; have := j.isLt; omega⟩

/-- The chunk a row lies in. -/
def chunkOf (r : Fin 4096) : Fin 16 := ⟨r.val / 256, by have := r.isLt; omega⟩

/-- Chunk `c` of the activations. -/
def chunk (X : (⟨2, ![4096, 4096]⟩ : Shape).Idx → EReal) (c : Fin 16) : Fin 256 → Fin 4096 → EReal :=
  fun j k => X (ix2 (rowOf c j) k)

/-- The approximated activations: entry (r, k). -/
def Xq (X : (⟨2, ![4096, 4096]⟩ : Shape).Idx → EReal) (r : Fin 4096) (k : Fin 4096) : EReal :=
  qd (X (ix2 r k)) (xscale (chunk X (chunkOf r)) k)

/-- Entry (r, v) of the product of the two approximations. -/
def logits (X : (⟨2, ![4096, 4096]⟩ : Shape).Idx → EReal) (W : (⟨2, ![32000, 4096]⟩ : Shape).Idx → EReal)
    (r : Fin 4096) (v : Fin 32000) : EReal :=
  ∑ k : Fin 4096, Xq X r k * Wq W k v

/-- The product as an array over [4096, 32000]. -/
def logitsArr (X : (⟨2, ![4096, 4096]⟩ : Shape).Idx → EReal) (W : (⟨2, ![32000, 4096]⟩ : Shape).Idx → EReal) :
    (⟨2, ![4096, 32000]⟩ : Shape).Idx → EReal :=
  fun i => logits X W ⟨(i 0).val, idx2_lt0 i⟩ ⟨(i 1).val, idx2_lt1 i⟩

/-- The activations with their two leading axes merged: [2, 2048, 4096] read as [4096, 4096]. -/
abbrev merged (A0 : (⟨3, ![2, 2048, 4096]⟩ : Shape).Idx → EReal) : (⟨2, ![4096, 4096]⟩ : Shape).Idx → EReal :=
  shapeCast ⟨2, ![4096, 4096]⟩ A0 (by decide)

/-- The whole result: the inputs' leading axes merged, the product, its rows split back into [2, 2048]. -/
def result (A0 : (⟨3, ![2, 2048, 4096]⟩ : Shape).Idx → EReal) (A1 : (⟨2, ![32000, 4096]⟩ : Shape).Idx → EReal) :
    (⟨3, ![2, 2048, 32000]⟩ : Shape).Idx → EReal :=
  shapeCast ⟨3, ![2, 2048, 32000]⟩ (logitsArr (merged A0) A1) (by decide)

end Cert.Spec

end
-- ==== Proof.KRegion0.lean ====
/-
  The first kernel: the approximated weights, transposed.

  Its grid has 125 points; point t reads rows 256·t … 256·t + 255 of the weights [32000, 4096] and writes columns
  256·t … 256·t + 255 of the result [4096, 32000].  Entry (k, v) of what it writes depends only on row v of the
  weights, so the blocks are the restrictions of one function of the whole weight array, and since the 125 column
  blocks tile the result, the result array ends holding that function.
-/
import proofs.«171524_j8117488190107_2_alg».proof.Proof.Gen.KernelIdeal.Frame
import proofs.«171524_j8117488190107_2_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The first kernel's result as one function of the weight array: entry (k, v) is the approximated weight (v, k). -/
def wqArr (A : S32000x4096.Idx → EReal) : S4096x32000.Idx → EReal :=
  fun i => Cert.Spec.Wq A ⟨(i 0).val, idx2_lt0 i⟩ ⟨(i 1).val, idx2_lt1 i⟩

/-- What a body's arithmetic is, entry by entry, on a block of 256 rows of weights (proved where the body is read). -/
def Pay0 : Prop := ∀ (x : Vec Ideal S256x4096 .f32) (k : Fin 4096) (j : Fin 256),
  k0_pay1 (F := Ideal) x (ix2 k j) = Cert.Spec.qd (x (ix2 j k)) (Cert.Spec.wscale fun k' => x (ix2 j k'))

/-- At one point: if the loaded block is rows 256·T … of the array, the body's result at (k, j) is the whole-array
    function at (k, 256·T + j). -/
theorem point0 (hpay : Pay0) (A : S32000x4096.Idx → EReal) (x0 : Vec Ideal S256x4096 .f32) (T : Nat)
    (hx : ∀ (j : Fin 256) (k : Fin 4096) (r : Fin 32000), r.val = 256 * T + j.val → x0 (ix2 j k) = A (ix2 r k))
    (y : S4096x256.Idx) (i : S4096x32000.Idx) (h0 : (i 0).val = (y 0).val) (h1 : (i 1).val = 256 * T + (y 1).val) :
    k0_pay1 (F := Ideal) x0 y = wqArr A i := by
  obtain ⟨p, q, rfl⟩ : ∃ (p : Fin 4096) (q : Fin 256), y = ix2 p q := ⟨y 0, y 1, eq_ix2 y⟩
  rw [hpay x0 p q]
  unfold wqArr Cert.Spec.Wq
  have hp : (⟨(i 0).val, idx2_lt0 i⟩ : Fin 4096) = p := Fin.ext h0
  rw [hp]
  have e1 : x0 (ix2 q p) = A (ix2 ⟨(i 1).val, idx2_lt1 i⟩ p) := hx q p _ h1
  have e2 : (fun k' => x0 (ix2 q k')) = Cert.Spec.wrow A ⟨(i 1).val, idx2_lt1 i⟩ :=
    funext fun k' => hx q k' _ h1
  rw [e1, e2]

/-- The printed index maps over the grid: the input moves down the rows, the output along the columns. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

/-- What point `t` writes back is block `t` of the whole-array function of the weights as the kernel finds them. -/
theorem flushed0_eq (hpay : Pay0) (c : Dev nD) (t : Fin cfg0.N) :
    (dat0 V c).flushed 1 t = ((cfg0.win 1).blk t).view.read (Elt Ideal) (wqArr (V c main_arg1)) := by
  show (cfg0.win 1).cut (grid0.coords t) ((dat0 V c).after 1 t) = _
  rw [after0_1]
  unfold out0_1
  rw [View.canon_unit_zero zeros2]
  simp only [View.ld_unit_zero (S := S256x4096) zeros2]
  obtain ⟨e0, e1, e2, e3⟩ := idx_facts0 t
  funext y
  show k0_pay1 (F := Ideal) (iblk0 V c 0 t) y = wqArr (V c main_arg1) (((cfg0.win 1).blk t).view.emb y)
  refine point0 hpay (V c main_arg1) (iblk0 V c 0 t) t.val ?_ y _ ?_ ?_
  · intro j k r hr
    show V c main_arg1 (((cfg0.win 0).blk t).view.emb (ix2 j k)) = V c main_arg1 (ix2 r k)
    refine congrArg _ (funext fun a => Fin.ext ?_)
    match a with
    | ⟨0, _⟩ => show win0_0.index t (0 : Fin 2) * 256 + 1 * j.val = r.val; omega
    | ⟨1, _⟩ => show win0_0.index t (1 : Fin 2) * 4096 + 1 * k.val = k.val; omega
  · show win0_1.index t (0 : Fin 2) * 4096 + 1 * (y 0).val = (y 0).val; omega
  · show win0_1.index t (1 : Fin 2) * 256 + 1 * (y 1).val = 256 * t.val + (y 1).val; omega

/-- An index of the result lies in point `t`'s block iff each coordinate lies in the block's range. -/
theorem mem_blk0 (t : Fin cfg0.N) (i : S4096x32000.Idx) :
    i ∈ ((cfg0.win 1).blk t).view.set ↔ ∀ a : Fin 2, win0_1.index t a * S4096x256.size a ≤ (i a).val ∧ (i a).val < win0_1.index t a * S4096x256.size a + S4096x256.size a := by
  show i ∈ ((View.whole main_v1).slice (win0_1.rect t)).set ↔ _
  rw [View.set_slice_whole, Rect.mem_set_unit]
  exact Iff.rfl

/-- The 125 column blocks tile the result: column v lies in point v / 256's block. -/
theorem cover0 (i : S4096x32000.Idx) :
    ∃ t : Fin cfg0.N, (cfg0.win 1).flush t = true ∧ i ∈ ((cfg0.win 1).blk t).view.set := by
  have hN : grid0.N = 125 := N_0
  have hi0 : (i 0).val < 4096 := idx2_lt0 i
  have hi1 : (i 1).val < 32000 := idx2_lt1 i
  let t : Fin cfg0.N := ⟨(i 1).val / 256, by show (i 1).val / 256 < grid0.N; omega⟩
  obtain ⟨e0, e1, e2, e3⟩ := idx_facts0 t
  have ht : t.val = (i 1).val / 256 := rfl
  refine ⟨t, flush0_1 t, ?_⟩
  rw [mem_blk0]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 256 ≤ (i 1).val ∧ (i 1).val < win0_1.index t (1 : Fin 2) * 256 + 256; omega

/-- After the first kernel its result array holds the approximated, transposed weights. -/
theorem final0 (hpay : Pay0) (c : Dev nD) : (dat0 V c).arrAt 1 cfg0.N = wqArr (V c main_arg1) :=
  (dat0 V c).arrAt_eq_of_cover 1 (wqArr (V c main_arg1)) (fun t _ => flushed0_eq V hpay c t) cover0

end Cert.KernelIdeal.KValue

end
-- ==== Proof.KRegion1.lean ====
/-
  The second kernel: the approximated activations.

  Its grid has 16 points; point t reads rows 256·t … 256·t + 255 of the activations [4096, 4096] — one chunk — and
  writes the same rows of the result.  Entry (r, k) of what it writes depends only on the chunk row r lies in, so the
  blocks are the restrictions of one function of the whole array, and the 16 row blocks tile the result.
-/
import proofs.«171524_j8117488190107_2_alg».proof.Proof.Gen.KernelIdeal.Frame
import proofs.«171524_j8117488190107_2_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2' : (![0, 0] : Fin 2 → Nat) = fun _ => 0 := funext fun a => by fin_cases a <;> rfl

/-- The second kernel's result as one function of the activations: entry (r, k) is the approximated activation. -/
def xqArr (X : S4096x4096.Idx → EReal) : S4096x4096.Idx → EReal :=
  fun i => Cert.Spec.Xq X ⟨(i 0).val, idx2_lt0 i⟩ ⟨(i 1).val, idx2_lt1 i⟩

/-- What the body's arithmetic is, entry by entry, on one chunk (proved where the body is read). -/
def Pay1 : Prop := ∀ (x : Vec Ideal S256x4096 .f32) (j : Fin 256) (k : Fin 4096),
  k1_pay1 (F := Ideal) (k1_pay2 x) (k1_pay7 (k1_pay3 x) (k1_pay4 x) (k1_pay5 x) (k1_pay6 x))
      (k1_pay8 (k1_pay3 x) (k1_pay4 x) (k1_pay5 x) (k1_pay6 x)) (ix2 j k)
    = Cert.Spec.qd (x (ix2 j k)) (Cert.Spec.xscale (fun j' k' => x (ix2 j' k')) k)

/-- At one point: if the loaded block is chunk T of the array, the body's result at (j, k) is the whole-array
    function at (256·T + j, k). -/
theorem point1 (hpay : Pay1) (X : S4096x4096.Idx → EReal) (x0 : Vec Ideal S256x4096 .f32) (T : Nat)
    (hx : ∀ (j : Fin 256) (k : Fin 4096) (r : Fin 4096), r.val = 256 * T + j.val → x0 (ix2 j k) = X (ix2 r k))
    (y : S256x4096.Idx) (i : S4096x4096.Idx) (h0 : (i 0).val = 256 * T + (y 0).val) (h1 : (i 1).val = (y 1).val) :
    k1_pay1 (F := Ideal) (k1_pay2 x0) (k1_pay7 (k1_pay3 x0) (k1_pay4 x0) (k1_pay5 x0) (k1_pay6 x0))
      (k1_pay8 (k1_pay3 x0) (k1_pay4 x0) (k1_pay5 x0) (k1_pay6 x0)) y = xqArr X i := by
  obtain ⟨p, q, rfl⟩ : ∃ (p : Fin 256) (q : Fin 4096), y = ix2 p q := ⟨y 0, y 1, eq_ix2 y⟩
  rw [hpay x0 p q]
  unfold xqArr Cert.Spec.Xq
  have hq : (⟨(i 1).val, idx2_lt1 i⟩ : Fin 4096) = q := Fin.ext h1
  rw [hq]
  have hp : (p : Fin 256).val < 256 := p.isLt
  have e1 : x0 (ix2 p q) = X (ix2 ⟨(i 0).val, idx2_lt0 i⟩ q) := hx p q _ h0
  have e2 : (fun j' k' => x0 (ix2 j' k')) = Cert.Spec.chunk X (Cert.Spec.chunkOf ⟨(i 0).val, idx2_lt0 i⟩) :=
    funext fun j' => funext fun k' => hx j' k' _ (by
      have hj : j'.val < 256 := j'.isLt
      show 256 * ((i 0).val / 256) + j'.val = 256 * T + j'.val
      have : (i 0).val = 256 * T + p.val := h0
      omega)
  rw [e1, e2]

/-- The printed index maps over the grid: input and output both move down the rows. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the whole-array function of the activations as the kernel finds them. -/
theorem flushed1_eq (hpay : Pay1) (c : Dev nD) (t : Fin cfg1.N) :
    (dat1 V c).flushed 1 t = ((cfg1.win 1).blk t).view.read (Elt Ideal) (xqArr (V c main_v0)) := by
  show (cfg1.win 1).cut (grid1.coords t) ((dat1 V c).after 1 t) = _
  rw [after1_1]
  unfold out1_1
  rw [View.canon_unit_zero zeros2']
  simp only [View.ld_unit_zero (S := S256x4096) zeros2']
  obtain ⟨e0, e1, e2, e3⟩ := idx_facts1 t
  funext y
  show k1_pay1 (F := Ideal) (k1_pay2 (iblk1 V c 0 t)) (k1_pay7 (k1_pay3 (iblk1 V c 0 t)) (k1_pay4 (iblk1 V c 0 t)) (k1_pay5 (iblk1 V c 0 t)) (k1_pay6 (iblk1 V c 0 t)))
      (k1_pay8 (k1_pay3 (iblk1 V c 0 t)) (k1_pay4 (iblk1 V c 0 t)) (k1_pay5 (iblk1 V c 0 t)) (k1_pay6 (iblk1 V c 0 t))) y
    = xqArr (V c main_v0) (((cfg1.win 1).blk t).view.emb y)
  refine point1 hpay (V c main_v0) (iblk1 V c 0 t) t.val ?_ y _ ?_ ?_
  · intro j k r hr
    show V c main_v0 (((cfg1.win 0).blk t).view.emb (ix2 j k)) = V c main_v0 (ix2 r k)
    refine congrArg _ (funext fun a => Fin.ext ?_)
    match a with
    | ⟨0, _⟩ => show win1_0.index t (0 : Fin 2) * 256 + 1 * j.val = r.val; omega
    | ⟨1, _⟩ => show win1_0.index t (1 : Fin 2) * 4096 + 1 * k.val = k.val; omega
  · show win1_1.index t (0 : Fin 2) * 256 + 1 * (y 0).val = 256 * t.val + (y 0).val; omega
  · show win1_1.index t (1 : Fin 2) * 4096 + 1 * (y 1).val = (y 1).val; omega

/-- An index of the result lies in point `t`'s block iff each coordinate lies in the block's range. -/
theorem mem_blk1 (t : Fin cfg1.N) (i : S4096x4096.Idx) :
    i ∈ ((cfg1.win 1).blk t).view.set ↔ ∀ a : Fin 2, win1_1.index t a * S256x4096.size a ≤ (i a).val ∧ (i a).val < win1_1.index t a * S256x4096.size a + S256x4096.size a := by
  show i ∈ ((View.whole main_v2).slice (win1_1.rect t)).set ↔ _
  rw [View.set_slice_whole, Rect.mem_set_unit]
  exact Iff.rfl

/-- The 16 row blocks tile the result: row r lies in point r / 256's block. -/
theorem cover1 (i : S4096x4096.Idx) :
    ∃ t : Fin cfg1.N, (cfg1.win 1).flush t = true ∧ i ∈ ((cfg1.win 1).blk t).view.set := by
  have hN : grid1.N = 16 := N_1
  have hi0 : (i 0).val < 4096 := idx2_lt0 i
  have hi1 : (i 1).val < 4096 := idx2_lt1 i
  let t : Fin cfg1.N := ⟨(i 0).val / 256, by show (i 0).val / 256 < grid1.N; omega⟩
  obtain ⟨e0, e1, e2, e3⟩ := idx_facts1 t
  have ht : t.val = (i 0).val / 256 := rfl
  refine ⟨t, flush1_1 t, ?_⟩
  rw [mem_blk1]
  intro a
  match a with
  | ⟨0, _⟩ => show win1_1.index t (0 : Fin 2) * 256 ≤ (i 0).val ∧ (i 0).val < win1_1.index t (0 : Fin 2) * 256 + 256; omega
  | ⟨1, _⟩ => show win1_1.index t (1 : Fin 2) * 4096 ≤ (i 1).val ∧ (i 1).val < win1_1.index t (1 : Fin 2) * 4096 + 4096; omega

/-- After the second kernel its result array holds the approximated activations. -/
theorem final1 (hpay : Pay1) (c : Dev nD) : (dat1 V c).arrAt 1 cfg1.N = xqArr (V c main_v0) :=
  (dat1 V c).arrAt_eq_of_cover 1 (xqArr (V c main_v0)) (fun t _ => flushed1_eq V hpay c t) cover1

end Cert.KernelIdeal.KValue

end
-- ==== Proof.KRegion2.lean ====
/-
  The third kernel: the product.

  Its grid is 25 × 8: point (a, b), in row-major order t = 8·a + b, reads rows 512·b … of the approximated activations
  [4096, 4096] and columns 1280·a … of the approximated weights [4096, 32000], and writes the block of the result
  [4096, 32000] at those rows and columns: each entry the sum over the 4096 shared coordinates.  The 200 blocks tile
  the result, so it ends holding the whole matrix product.
-/
import proofs.«171524_j8117488190107_2_alg».proof.Proof.Gen.KernelIdeal.Frame
import proofs.«171524_j8117488190107_2_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2'' : (![0, 0] : Fin 2 → Nat) = fun _ => 0 := funext fun a => by fin_cases a <;> rfl

/-- The matrix product of an array [4096, 4096] and an array [4096, 32000], entry by entry. -/
def prodArr (X : S4096x4096.Idx → EReal) (Wt : S4096x32000.Idx → EReal) : S4096x32000.Idx → EReal :=
  fun i => ∑ k : Fin 4096, X (ix2 (⟨(i 0).val, idx2_lt0 i⟩ : Fin 4096) k) * Wt (ix2 k (⟨(i 1).val, idx2_lt1 i⟩ : Fin 32000))

/-- What the body's arithmetic is, entry by entry, on a pair of blocks (proved where the body is read). -/
def Pay2 : Prop := ∀ (x : Vec Ideal S512x4096 .bf16) (w : Vec Ideal S4096x1280 .bf16) (a : Fin 512) (b : Fin 1280),
  k2_pay1 (F := Ideal) x w (ix2 a b) = ∑ k : Fin 4096, x (ix2 a k) * w (ix2 k b)

/-- At one point: if the loaded blocks are rows 512·T1 … of the left array and columns 1280·T0 … of the right, the
    body's result at (a, b) is the product at (512·T1 + a, 1280·T0 + b). -/
theorem point2 (hpay : Pay2) (X : S4096x4096.Idx → EReal) (Wt : S4096x32000.Idx → EReal)
    (x0 : Vec Ideal S512x4096 .bf16) (x1 : Vec Ideal S4096x1280 .bf16) (T0 T1 : Nat)
    (hx : ∀ (a : Fin 512) (k : Fin 4096) (r : Fin 4096), r.val = 512 * T1 + a.val → x0 (ix2 a k) = X (ix2 r k))
    (hw : ∀ (k : Fin 4096) (b : Fin 1280) (v : Fin 32000), v.val = 1280 * T0 + b.val → x1 (ix2 k b) = Wt (ix2 k v))
    (y : S512x1280.Idx) (i : S4096x32000.Idx) (h0 : (i 0).val = 512 * T1 + (y 0).val) (h1 : (i 1).val = 1280 * T0 + (y 1).val) :
    k2_pay1 (F := Ideal) x0 x1 y = prodArr X Wt i := by
  obtain ⟨p, q, rfl⟩ : ∃ (p : Fin 512) (q : Fin 1280), y = ix2 p q := ⟨y 0, y 1, eq_ix2 y⟩
  rw [hpay x0 x1 p q]
  unfold prodArr
  refine Finset.sum_congr rfl fun k _ => ?_
  rw [hx p k ⟨(i 0).val, idx2_lt0 i⟩ h0, hw k q ⟨(i 1).val, idx2_lt1 i⟩ h1]

/-- The printed index maps over the grid: the left block follows the fast coordinate, the right block the slow one. -/
theorem idx_facts2 : ∀ t : Fin cfg2.N, win2_0.index t (0 : Fin 2) = t.val % 8 ∧ win2_0.index t (1 : Fin 2) = 0
    ∧ win2_1.index t (0 : Fin 2) = 0 ∧ win2_1.index t (1 : Fin 2) = t.val / 8
    ∧ win2_2.index t (0 : Fin 2) = t.val % 8 ∧ win2_2.index t (1 : Fin 2) = t.val / 8 :=
  (by decide +kernel : ∀ t : Fin grid2.N, _)

/-- What point `t` writes back is block `t` of the product of the two arrays as the kernel finds them. -/
theorem flushed2_eq (hpay : Pay2) (c : Dev nD) (t : Fin cfg2.N) :
    (dat2 V c).flushed 2 t = ((cfg2.win 2).blk t).view.read (Elt Ideal) (prodArr (V c main_v2) (V c main_v1)) := by
  show (cfg2.win 2).cut (grid2.coords t) ((dat2 V c).after 2 t) = _
  rw [after2_2]
  unfold out2_2
  rw [View.canon_unit_zero zeros2'']
  simp only [View.ld_unit_zero (S := S512x4096) zeros2'', View.ld_unit_zero (S := S4096x1280) zeros2'']
  obtain ⟨e0, e1, e2, e3, e4, e5⟩ := idx_facts2 t
  funext y
  show k2_pay1 (F := Ideal) (iblk2 V c 0 t) (iblk2 V c 1 t) y
    = prodArr (V c main_v2) (V c main_v1) (((cfg2.win 2).blk t).view.emb y)
  refine point2 hpay (V c main_v2) (V c main_v1) (iblk2 V c 0 t) (iblk2 V c 1 t) (t.val / 8) (t.val % 8) ?_ ?_ y _ ?_ ?_
  · intro a k r hr
    show V c main_v2 (((cfg2.win 0).blk t).view.emb (ix2 a k)) = V c main_v2 (ix2 r k)
    refine congrArg _ (funext fun d => Fin.ext ?_)
    match d with
    | ⟨0, _⟩ => show win2_0.index t (0 : Fin 2) * 512 + 1 * a.val = r.val; omega
    | ⟨1, _⟩ => show win2_0.index t (1 : Fin 2) * 4096 + 1 * k.val = k.val; omega
  · intro k b v hv
    show V c main_v1 (((cfg2.win 1).blk t).view.emb (ix2 k b)) = V c main_v1 (ix2 k v)
    refine congrArg _ (funext fun d => Fin.ext ?_)
    match d with
    | ⟨0, _⟩ => show win2_1.index t (0 : Fin 2) * 4096 + 1 * k.val = k.val; omega
    | ⟨1, _⟩ => show win2_1.index t (1 : Fin 2) * 1280 + 1 * b.val = v.val; omega
  · show win2_2.index t (0 : Fin 2) * 512 + 1 * (y 0).val = 512 * (t.val % 8) + (y 0).val; omega
  · show win2_2.index t (1 : Fin 2) * 1280 + 1 * (y 1).val = 1280 * (t.val / 8) + (y 1).val; omega

/-- An index of the result lies in point `t`'s block iff each coordinate lies in the block's range. -/
theorem mem_blk2 (t : Fin cfg2.N) (i : S4096x32000.Idx) :
    i ∈ ((cfg2.win 2).blk t).view.set ↔ ∀ a : Fin 2, win2_2.index t a * S512x1280.size a ≤ (i a).val ∧ (i a).val < win2_2.index t a * S512x1280.size a + S512x1280.size a := by
  show i ∈ ((View.whole main_v3).slice (win2_2.rect t)).set ↔ _
  rw [View.set_slice_whole, Rect.mem_set_unit]
  exact Iff.rfl

/-- The 200 blocks tile the result: entry (r, v) lies in the block of point 8·(v / 1280) + r / 512. -/
theorem cover2 (i : S4096x32000.Idx) :
    ∃ t : Fin cfg2.N, (cfg2.win 2).flush t = true ∧ i ∈ ((cfg2.win 2).blk t).view.set := by
  have hN : grid2.N = 200 := N_2
  have hi0 : (i 0).val < 4096 := idx2_lt0 i
  have hi1 : (i 1).val < 32000 := idx2_lt1 i
  let t : Fin cfg2.N := ⟨8 * ((i 1).val / 1280) + (i 0).val / 512, by show 8 * ((i 1).val / 1280) + (i 0).val / 512 < grid2.N; omega⟩
  obtain ⟨e0, e1, e2, e3, e4, e5⟩ := idx_facts2 t
  have ht : t.val = 8 * ((i 1).val / 1280) + (i 0).val / 512 := rfl
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1280 ≤ (i 1).val ∧ (i 1).val < win2_2.index t (1 : Fin 2) * 1280 + 1280; omega

/-- After the third kernel its result array holds the product of the two arrays it was given. -/
theorem final2 (hpay : Pay2) (c : Dev nD) : (dat2 V c).arrAt 2 cfg2.N = prodArr (V c main_v2) (V c main_v1) :=
  (dat2 V c).arrAt_eq_of_cover 2 (prodArr (V c main_v2) (V c main_v1)) (fun t _ => flushed2_eq V hpay c t) cover2

end Cert.KernelIdeal.KValue

end
-- ==== Proof.KChain.lean ====
/-
  The kernel program's result as the function of its arguments.

  Walking back from the result buffer: the last host line splits the rows of the third kernel's result; that result
  is the product of the second kernel's and the first kernel's results; the second kernel's is the approximation of
  the activations the first host line merged; the first kernel's is the approximation of the weights.  Between the
  kernels every buffer a kernel does not write keeps its contents.
-/
import proofs.«171524_j8117488190107_2_alg».proof.Proof.KRun
import proofs.«171524_j8117488190107_2_alg».proof.Proof.KRegion0
import proofs.«171524_j8117488190107_2_alg».proof.Proof.KRegion1
import proofs.«171524_j8117488190107_2_alg».proof.Proof.KRegion2
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The product of the two approximations is the specification's array of logits. -/
theorem prodArr_eq (X : S4096x4096.Idx → EReal) (W : S32000x4096.Idx → EReal) :
    prodArr (xqArr X) (wqArr W) = Cert.Spec.logitsArr X W := by
  funext i
  unfold prodArr Cert.Spec.logitsArr Cert.Spec.logits xqArr wqArr
  exact Finset.sum_congr rfl fun k _ => rfl

/-- The first kernel finds the weights as launched: the host line before it writes another buffer. -/
theorem entry_weights (c : Dev nD) :
    V1 (F := Ideal) m ρ c main_arg1 = m ((c.tc : Thread nD τ).loc main_arg1) := by
  show StableHlo.after hostOps0 (W0 m ρ c) (Proc.devRef .tc main_arg1) = _
  after_results <;> rfl

/-- The second kernel finds the activations with their leading axes merged: the first host line's result, which the
    first kernel does not touch. -/
theorem entry_acts (c : Dev nD) :
    V2 (F := Ideal) m ρ c main_v0 = Cert.Spec.merged (m ((c.tc : Thread nD τ).loc main_arg0)) := by
  show W2 m ρ c (Proc.devRef .tc main_v0) = _
  rw [W2_of_ne m ρ c main_v0 (by decide)]
  show StableHlo.after hostOps0 (W0 m ρ c) (Proc.devRef .tc main_v0) = _
  after_results <;> rfl

/-- The third kernel finds the approximated, transposed weights: the first kernel's result, which the second does
    not touch. -/
theorem entry_wq (h0 : Pay0) (c : Dev nD) :
    V3 (F := Ideal) m ρ c main_v1 = wqArr (m ((c.tc : Thread nD τ).loc main_arg1)) := by
  show W3 m ρ c (Proc.devRef .tc main_v1) = _
  rw [W3_of_ne m ρ c main_v1 (by decide)]
  exact (W2_arr m ρ c 1).trans ((final0 (V1 m ρ) h0 c).trans (congrArg wqArr (entry_weights m ρ c)))

/-- The third kernel finds the approximated activations: the second kernel's result. -/
theorem entry_xq (h1 : Pay1) (c : Dev nD) :
    V3 (F := Ideal) m ρ c main_v2 = xqArr (Cert.Spec.merged (m ((c.tc : Thread nD τ).loc main_arg0))) :=
  (W3_arr m ρ c 1).trans ((final1 (V2 m ρ) h1 c).trans (congrArg xqArr (entry_acts m ρ c)))

/-- The third kernel's result is the specification's array of logits. -/
theorem product_eq (h0 : Pay0) (h1 : Pay1) (h2 : Pay2) (c : Dev nD) :
    W4 (F := Ideal) m ρ c (Proc.devRef .tc main_v3)
      = Cert.Spec.logitsArr (Cert.Spec.merged (m ((c.tc : Thread nD τ).loc main_arg0))) (m ((c.tc : Thread nD τ).loc main_arg1)) := by
  refine (W4_arr m ρ c 2).trans ((final2 (V3 m ρ) h2 c).trans ?_)
  rw [entry_xq m ρ h1 c, entry_wq m ρ h0 c, prodArr_eq]

/-- The result buffer at the last boundary is the specification's result. -/
theorem result_eq (h0 : Pay0) (h1 : Pay1) (h2 : Pay2) (c : Dev nD) :
    W5 (F := Ideal) m ρ c (Proc.devRef .tc main_v4)
      = Cert.Spec.result (m ((c.tc : Thread nD τ).loc main_arg0)) (m ((c.tc : Thread nD τ).loc main_arg1)) := by
  show StableHlo.after hostOps3 (W4 m ρ c) (Proc.devRef .tc main_v4) = _
  after_results
  rw [product_eq m ρ h0 h1 h2 c]
  rfl

/-- Every weakly fair execution of the kernel program terminates with the specification's result in the result
    buffer and the arguments as launched. -/
theorem kernel_value (h0 : Pay0) (h1 : Pay1) (h2 : Pay2) :
    θ_run defs (onTc (τ := τ) (main (F := Ideal))) ⟨m, fun _ => 0, ρ⟩ (fun r => ∀ c : Dev nD,
      r.2.mem ((c.tc : Thread nD τ).loc main_v4)
        = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ h0 h1 h2 c), (h c).2⟩) (run_value m ρ)

end Cert.KernelIdeal.KValue

end
-- ==== Proof.PayWeights.lean ====
/-
  The weight-quantizing body read at an index.

  The loaded block is 256 rows of 4096 weights.  For each row the body takes the largest magnitude in the row
  (a maximum over the columns, started from −∞), multiplies it by the named 1/7 and takes max(ε, |·|): the row's
  step.  Each weight is divided by its row's step, rounded to the nearest integer (ties to even), clamped between
  −8 and 7, and multiplied back by the step; the block is stored transposed, so entry (k, j) of what is stored is
  the quantized weight (j, k).
-/
import proofs.«171524_j8117488190107_2_alg».proof.Proof.Spec
import proofs.«171524_j8117488190107_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open Idealize.ShloMosaic Idealize.ShloMosaic.ValueIdx

namespace Cert.KernelIdeal.Pay

open Cert.KernelIdeal Cert.KernelIdeal.Gen

/-! ### Two layout operations at an index -/

/-- A vector of length `a` cast to a column `[a, 1]` reads, at `(i, u)`, the vector at `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The constants -/

/-- The integer word 7 read as a float is the real 7. -/
theorem w_sitofp_7 : Scalar.sitofp (F := Ideal) .f32 7#32 = ((7 : ℝ) : EReal) := by
  rw [Ideal.scalar_sitofp_def]
  have h : (7#32 : BitVec 32).toInt = 7 := by decide
  rw [h]; norm_num

/-- The integer word 2³² − 8 read signed is −8, as a float the real −8. -/
theorem w_sitofp_neg8 : Scalar.sitofp (F := Ideal) .f32 4294967288#32 = ((-8 : ℝ) : EReal) := by
  rw [Ideal.scalar_sitofp_def]
  have h : (4294967288#32 : BitVec 32).toInt = -8 := by decide
  rw [h]; norm_num

/-- The named constant denotes the rational 1/7. -/
theorem w_inv7 : Named.named (F := Ideal) κ "inv_7" (φ := .f32) 0x3E124925#32 = ((1 / 7 : ℝ) : EReal) :=
  IdealRules.named_const.ideal_named_scalar _ _ _ _ rfl

/-! ### The body's stages -/

/-- Divide by the step, round, clamp to −8 … 7, multiply back: the quantization of one entry with the step at
    that entry. -/
theorem w_quant_apply (x s : FVec Ideal S256x4096 .f32) (i : S256x4096.Idx) :
    truncf .bf16 (mulf (minimumf (broadcast S256x4096 (Scalar.sitofp (F := Ideal) .f32 7#32))
      (maximumf (broadcast S256x4096 (Scalar.sitofp (F := Ideal) .f32 4294967288#32)) (roundeven (divf x s)))) s)
      bitsLt_bf16_f32 i = Cert.Spec.qd (x i) (s i) := by
  show min (Scalar.sitofp (F := Ideal) .f32 7#32) (max (Scalar.sitofp (F := Ideal) .f32 4294967288#32)
    (Ideal.liftRound Ideal.roundHalfEven (Ideal.div (x i) (s i)))) * s i = _
  rw [w_sitofp_7, w_sitofp_neg8]
  rfl

/-- The step from a threshold: max(ε, |threshold · 1/7|). -/
theorem w_step_apply (m : FVec Ideal S256x1 .f32) (i : S256x1.Idx) :
    maximumf (broadcast S256x1 (FloatOps.ofBits (F := Ideal) .f32 0x3089705F#32))
      (absf (mulf m (broadcast S256x1 (Named.named (F := Ideal) κ "inv_7" (φ := .f32) 0x3E124925#32)))) i
      = Cert.Spec.scaleOf (m i) := by
  show max (Ideal.ofBits .f32 0x3089705F#32)
    (max (m i * Named.named (F := Ideal) κ "inv_7" (φ := .f32) 0x3E124925#32)
      (-(m i * Named.named (F := Ideal) κ "inv_7" (φ := .f32) 0x3E124925#32))) = _
  rw [w_inv7]
  rfl

/-- The maximum over the columns of the magnitudes, started from −∞, at row `j`: the largest magnitude of the
    row. -/
theorem w_rowmax_apply (x : FVec Ideal S256x4096 .f32) (hφ : FKind.Formats .f32)
    (hacc : (0xFF800000#32 : BitVec FTy.f32.bits) = FKind.maximumf.neutral .f32 hφ) (j : Fin 256) :
    multiReduction .maximumf [1] S256 (absf x) 0xFF800000#32 reduces_S256x4096_S256 hφ hacc (ix1 j)
      = Cert.Spec.maxOver fun k' : Fin 4096 => Cert.Spec.mag (x (ix2 j k')) := by
  refine (Ideal.multiReduction_maximumf_single (absf x) _ reduces_S256x4096_S256 hφ hacc (ix1 j)).trans ?_
  have hb : FloatOps.ofBits (F := Ideal) .f32 0xFF800000#32 = (⊥ : EReal) := by
    simp [Ideal.ofBits, Ideal.ieee]
  have hf : (absf x ∘ reduces_S256x4096_S256.lift (ix1 j))
      = fun k' : Fin 4096 => Cert.Spec.mag (x (ix2 j k')) := by
    funext k'
    have e : reduces_S256x4096_S256.lift (ix1 j) k' = ix2 j k' :=
      funext fun c => Fin.ext (by match c with | ⟨0, _⟩ => rfl | ⟨1, _⟩ => rfl)
    show max (x (reduces_S256x4096_S256.lift (ix1 j) k')) (-(x (reduces_S256x4096_S256.lift (ix1 j) k'))) = _
    rw [e]
    rfl
  rw [hb, hf]
  rfl

/-- Entry (k, j) of what the body stores: weight (j, k) quantized with the step of row j. -/
theorem pay0_apply (x : Vec Ideal S256x4096 .f32) (k : Fin 4096) (j : Fin 256) :
    k0_pay1 (F := Ideal) x (ix2 k j) = Cert.Spec.qd (x (ix2 j k)) (Cert.Spec.wscale fun k' => x (ix2 j k')) := by
  unfold k0_pay1
  refine (transpose_ix2_apply _ transposes_S256x4096_p1_0_S4096x256 k j).trans ?_
  refine (w_quant_apply _ _ _).trans ?_
  refine congrArg (Cert.Spec.qd (x (ix2 j k))) ?_
  refine (broadcastTo_col_apply _ broadcasts_S256x1_S256x4096 j k).trans ?_
  refine (w_step_apply _ _).trans ?_
  refine congrArg Cert.Spec.scaleOf ?_
  refine (shapeCast_col_apply _ shapeCasts_S256_S256x1 j 0).trans ?_
  exact w_rowmax_apply x _ _ j

end Cert.KernelIdeal.Pay

end
-- ==== Proof.PayCount.lean ====
/-
  Counting thresholds: thirteen comparisons "a > m · 2^(i − 13)", i = 0 … 12, each taken as a bit and widened to a
  32-bit word, are added from zero.  The sum is at most 13, so as a signed integer it is the number of indices i
  whose threshold a strictly exceeds.
-/
import Idealize.ShloMosaic.PureOps.Ideal
noncomputable section
namespace Cert.KernelIdeal.Pay
open Idealize.ShloMosaic
/-- 2^(n − 13) as an extended real. -/
def pw (n : ℕ) : EReal := (((2 : ℝ) ^ ((n : ℤ) - 13) : ℝ) : EReal)
/-- One comparison "a > t" as a bit, widened to 32 bits. -/
def cbit (a t : EReal) : BitVec 32 := (Ideal.cmp .ogt a t).setWidth 32

/-- A widened comparison bit is the word of 1 or of 0. -/
theorem cnt_cbit (a t : EReal) : cbit a t = BitVec.ofNat 32 (if t < a then 1 else 0) := by
  show (BitVec.ofBool (decide (t < a))).setWidth 32 = _
  by_cases h : t < a
  · rw [decide_eq_true h, if_pos h]; rfl
  · rw [decide_eq_false h, if_neg h]; rfl

/-- A word below 2^31 read as a signed integer is the number itself. -/
theorem cnt_toInt_ofNat (n : ℕ) (hn : n ≤ 13) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- Thirteen words of numbers that are each 0 or 1, added from zero: the signed value of the sum is the sum. -/
theorem cnt_word (b : ℕ → ℕ) (hb : ∀ n, b n ≤ 1) :
    (0#32 + BitVec.ofNat 32 (b 0) + BitVec.ofNat 32 (b 1) + BitVec.ofNat 32 (b 2) + BitVec.ofNat 32 (b 3)
      + BitVec.ofNat 32 (b 4) + BitVec.ofNat 32 (b 5) + BitVec.ofNat 32 (b 6) + BitVec.ofNat 32 (b 7)
      + BitVec.ofNat 32 (b 8) + BitVec.ofNat 32 (b 9) + BitVec.ofNat 32 (b 10) + BitVec.ofNat 32 (b 11)
      + BitVec.ofNat 32 (b 12)).toInt
    = ((∑ n ∈ Finset.range 13, b n : ℕ) : ℤ) := by
  have h0 : (0#32 : BitVec 32) = BitVec.ofNat 32 0 := rfl
  rw [h0]
  simp only [← BitVec.ofNat_add]
  rw [cnt_toInt_ofNat _ (by
    have := hb 0; have := hb 1; have := hb 2; have := hb 3; have := hb 4; have := hb 5; have := hb 6
    have := hb 7; have := hb 8; have := hb 9; have := hb 10; have := hb 11; have := hb 12
    omega)]
  simp only [Finset.sum_range_succ, Finset.sum_range_zero]

theorem count13 (a m : EReal) :
    (0#32 + cbit a (m * pw 0) + cbit a (m * pw 1) + cbit a (m * pw 2) + cbit a (m * pw 3) + cbit a (m * pw 4)
      + cbit a (m * pw 5) + cbit a (m * pw 6) + cbit a (m * pw 7) + cbit a (m * pw 8) + cbit a (m * pw 9)
      + cbit a (m * pw 10) + cbit a (m * pw 11) + cbit a (m * pw 12)).toInt
    = ((Finset.univ.filter fun i : Fin 13 => m * pw i.val < a).card : ℤ) := by
  simp only [cnt_cbit]
  refine (cnt_word (fun n => if m * pw n < a then 1 else 0) (fun n => by split <;> omega)).trans ?_
  rw [Finset.card_filter]
  exact congrArg (fun x : ℕ => (x : ℤ)) (Fin.sum_univ_eq_sum_range (fun n => if m * pw n < a then 1 else 0) 13).symm
end Cert.KernelIdeal.Pay
end
-- ==== Proof.PayActs.lean ====
/-
  The activation-quantizing body read at an index.

  The loaded block is one chunk: 256 rows by 4096 columns.  The body takes each column's largest magnitude (a
  maximum over the rows, started from −∞) and the largest of those over the columns: the chunk's largest
  magnitude.  It compares each column's maximum with the thirteen boundaries, the chunk's maximum times
  2^(i − 13) for i = 0 … 12, adds up the thirteen comparison bits — the column's level —, and forms the column's
  threshold, the chunk's maximum times 2^(level − 13).  The column's step is max(ε, |threshold · 1/7|); every
  activation is divided by its column's step, rounded to the nearest integer (ties to even), clamped between
  −8 and 7, and multiplied back by the step.
-/
import proofs.«171524_j8117488190107_2_alg».proof.Proof.Spec
import proofs.«171524_j8117488190107_2_alg».proof.Proof.Gen.KernelIdeal.Skeleton
import proofs.«171524_j8117488190107_2_alg».proof.Proof.PayCount
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open Idealize.ShloMosaic Idealize.ShloMosaic.ValueIdx

namespace Cert.KernelIdeal.Pay

open Cert.KernelIdeal Cert.KernelIdeal.Gen

/-! ### A layout operation at an index -/

/-- A one-entry array `[1, 1]` broadcast to a row `[1, b]` reads its one entry everywhere. -/
theorem broadcastTo_one_row_apply {α : Type} {b : ℕ} (v : (⟨2, ![1, 1]⟩ : Shape).Idx → α)
    (h : (⟨2, ![1, 1]⟩ : Shape).Broadcasts ⟨2, ![1, b]⟩) (u : Fin 1) (c : Fin b) :
    broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

/-! ### The two maxima -/

/-- The word 0xFF800000 denotes −∞. -/
theorem a_neg_inf : FloatOps.ofBits (F := Ideal) .f32 0xFF800000#32 = (⊥ : EReal) := by
  simp [Ideal.ofBits, Ideal.ieee]

/-- The maximum over the rows of the magnitudes, started from −∞, at column `k`: the largest magnitude of the
    column. -/
theorem a_colmax_apply (x : FVec Ideal S256x4096 .f32) (hφ : FKind.Formats .f32)
    (hacc : (0xFF800000#32 : BitVec FTy.f32.bits) = FKind.maximumf.neutral .f32 hφ) (k : Fin 4096) :
    multiReduction .maximumf [0] S4096 (absf x) 0xFF800000#32 reduces_S256x4096_S4096 hφ hacc (ix1 k)
      = Cert.Spec.colMax (fun j' k' => x (ix2 j' k')) k := by
  refine (Ideal.multiReduction_maximumf_single (absf x) _ reduces_S256x4096_S4096 hφ hacc (ix1 k)).trans ?_
  have hf : (absf x ∘ reduces_S256x4096_S4096.lift (ix1 k))
      = fun j' : Fin 256 => Cert.Spec.mag (x (ix2 j' k)) := by
    funext j'
    have e : reduces_S256x4096_S4096.lift (ix1 k) j' = ix2 j' k :=
      funext fun c => Fin.ext (by match c with | ⟨0, _⟩ => rfl | ⟨1, _⟩ => rfl)
    show max (x (reduces_S256x4096_S4096.lift (ix1 k) j')) (-(x (reduces_S256x4096_S4096.lift (ix1 k) j'))) = _
    rw [e]
    rfl
  rw [a_neg_inf, hf]
  rfl

/-- The first stage: the column maxima as a row `[1, 4096]`. -/
theorem pay3_apply (x : Vec Ideal S256x4096 .f32) (u : Fin 1) (k : Fin 4096) :
    k1_pay3 (F := Ideal) x (ix2 u k) = Cert.Spec.colMax (fun j' k' => x (ix2 j' k')) k := by
  unfold k1_pay3 k1_pay2
  rw [shapeCast_self]
  refine (shapeCast_a_1a_apply _ shapeCasts_S4096_S1x4096 u k).trans ?_
  exact a_colmax_apply x _ _ k

/-- The maximum over the columns of a row `[1, 4096]`, started from −∞: the largest entry of the row. -/
theorem a_rowmax_apply (r : FVec Ideal S1x4096 .f32) (hφ : FKind.Formats .f32)
    (hacc : (0xFF800000#32 : BitVec FTy.f32.bits) = FKind.maximumf.neutral .f32 hφ) (v : Fin 1) :
    multiReduction .maximumf [1] S1 r 0xFF800000#32 reduces_S1x4096_S1 hφ hacc (ix1 v)
      = Cert.Spec.maxOver fun k' : Fin 4096 => r (ix2 v k') := by
  refine (Ideal.multiReduction_maximumf_single r _ reduces_S1x4096_S1 hφ hacc (ix1 v)).trans ?_
  have hf : (r ∘ reduces_S1x4096_S1.lift (ix1 v)) = fun k' : Fin 4096 => r (ix2 v k') := by
    funext k'
    have e : reduces_S1x4096_S1.lift (ix1 v) k' = ix2 v k' :=
      funext fun c => Fin.ext (by match c with | ⟨0, _⟩ => rfl | ⟨1, _⟩ => rfl)
    exact congrArg r e
  rw [a_neg_inf, hf]
  rfl

/-- The second stage: the largest magnitude of the chunk, as a one-entry array. -/
theorem pay4_apply (x : Vec Ideal S256x4096 .f32) (u v : Fin 1) :
    k1_pay4 (F := Ideal) x (ix2 u v) = Cert.Spec.chunkMax (fun j' k' => x (ix2 j' k')) := by
  unfold k1_pay4
  refine (shapeCast_a_1a_apply _ shapeCasts_S1_S1x1 u v).trans ?_
  refine (a_rowmax_apply (k1_pay3 x) _ _ v).trans ?_
  unfold Cert.Spec.chunkMax
  exact congrArg Cert.Spec.maxOver (funext fun k' => pay3_apply x v k')

/-! ### The thirteen boundaries' factors, and thirteen -/

/-- The word 0x39000000 denotes 2^(0 − 13). -/
theorem a_word_0 : FloatOps.ofBits (F := Ideal) .f32 0x39000000#32 = pw 0 := by
  unfold pw
  simp [Ideal.ofBits, Ideal.ieee, -EReal.coe_mul]; norm_num

/-- The word 0x39800000 denotes 2^(1 − 13). -/
theorem a_word_1 : FloatOps.ofBits (F := Ideal) .f32 0x39800000#32 = pw 1 := by
  unfold pw
  simp [Ideal.ofBits, Ideal.ieee, -EReal.coe_mul]; norm_num

/-- The word 0x3A000000 denotes 2^(2 − 13). -/
theorem a_word_2 : FloatOps.ofBits (F := Ideal) .f32 0x3A000000#32 = pw 2 := by
  unfold pw
  simp [Ideal.ofBits, Ideal.ieee, -EReal.coe_mul]; norm_num

/-- The word 0x3A800000 denotes 2^(3 − 13). -/
theorem a_word_3 : FloatOps.ofBits (F := Ideal) .f32 0x3A800000#32 = pw 3 := by
  unfold pw
  simp [Ideal.ofBits, Ideal.ieee, -EReal.coe_mul]; norm_num

/-- The word 0x3B000000 denotes 2^(4 − 13). -/
theorem a_word_4 : FloatOps.ofBits (F := Ideal) .f32 0x3B000000#32 = pw 4 := by
  unfold pw
  simp [Ideal.ofBits, Ideal.ieee, -EReal.coe_mul]; norm_num

/-- The word 0x3B800000 denotes 2^(5 − 13). -/
theorem a_word_5 : FloatOps.ofBits (F := Ideal) .f32 0x3B800000#32 = pw 5 := by
  unfold pw
  simp [Ideal.ofBits, Ideal.ieee, -EReal.coe_mul]; norm_num

/-- The word 0x3C000000 denotes 2^(6 − 13). -/
theorem a_word_6 : FloatOps.ofBits (F := Ideal) .f32 0x3C000000#32 = pw 6 := by
  unfold pw
  simp [Ideal.ofBits, Ideal.ieee, -EReal.coe_mul]; norm_num

/-- The word 0x3C800000 denotes 2^(7 − 13). -/
theorem a_word_7 : FloatOps.ofBits (F := Ideal) .f32 0x3C800000#32 = pw 7 := by
  unfold pw
  simp [Ideal.ofBits, Ideal.ieee, -EReal.coe_mul]; norm_num

/-- The word 0x3D000000 denotes 2^(8 − 13). -/
theorem a_word_8 : FloatOps.ofBits (F := Ideal) .f32 0x3D000000#32 = pw 8 := by
  unfold pw
  simp [Ideal.ofBits, Ideal.ieee, -EReal.coe_mul]; norm_num

/-- The word 0x3D800000 denotes 2^(9 − 13). -/
theorem a_word_9 : FloatOps.ofBits (F := Ideal) .f32 0x3D800000#32 = pw 9 := by
  unfold pw
  simp [Ideal.ofBits, Ideal.ieee, -EReal.coe_mul]; norm_num

/-- The word 0x3E000000 denotes 2^(10 − 13). -/
theorem a_word_10 : FloatOps.ofBits (F := Ideal) .f32 0x3E000000#32 = pw 10 := by
  unfold pw
  simp [Ideal.ofBits, Ideal.ieee, -EReal.coe_mul]; norm_num

/-- The word 0x3E800000 denotes 2^(11 − 13). -/
theorem a_word_11 : FloatOps.ofBits (F := Ideal) .f32 0x3E800000#32 = pw 11 := by
  unfold pw
  simp [Ideal.ofBits, Ideal.ieee, -EReal.coe_mul]; norm_num

/-- The word 0x3F000000 denotes 2^(12 − 13). -/
theorem a_word_12 : FloatOps.ofBits (F := Ideal) .f32 0x3F000000#32 = pw 12 := by
  unfold pw
  simp [Ideal.ofBits, Ideal.ieee, -EReal.coe_mul]; norm_num

/-- The word 0x41500000 denotes 13. -/
theorem a_word_thirteen : FloatOps.ofBits (F := Ideal) .f32 0x41500000#32 = ((13 : ℝ) : EReal) := by
  simp [Ideal.ofBits, Ideal.ieee, -EReal.coe_mul]; norm_num

/-! ### The comparisons and the level word -/

/-- An integer sum at an index is the sum of the entries. -/
theorem addi_at {s : Shape} {w : ℕ} (a b : IVec s w) (i : s.Idx) : addi a b i = a i + b i := rfl

/-- One comparison of the body: the column's maximum against the chunk's maximum times a constant, as a bit
    widened to 32 bits. -/
theorem a_cmp_apply (v4 : FVec Ideal S1x4096 .f32) (v6 : FVec Ideal S1x1 .f32) (c : Ideal .f32) (u : Fin 1) (k : Fin 4096) :
    extui 32 (cmpf .ogt v4 (broadcastTo S1x4096 (mulf v6 (broadcast S1x1 c)) broadcasts_S1x1_S1x4096)) natLt_1_32 (ix2 u k)
      = cbit (v4 (ix2 u k)) (v6 (ix2 (0 : Fin 1) (0 : Fin 1)) * c) := by
  show (Ideal.cmp .ogt (v4 (ix2 u k))
    (broadcastTo S1x4096 (mulf v6 (broadcast S1x1 c)) broadcasts_S1x1_S1x4096 (ix2 u k))).setWidth 32 = _
  rw [broadcastTo_one_row_apply]
  rfl

/-- The comparison against a row of thresholds already formed. -/
theorem a_cmp_row_apply (v4 v46 : FVec Ideal S1x4096 .f32) (i : S1x4096.Idx) :
    extui 32 (cmpf .ogt v4 v46) natLt_1_32 i = cbit (v4 i) (v46 i) := rfl

/-- One boundary as a row: the chunk's maximum times a constant, at every column. -/
theorem a_bnd_apply (v6 : FVec Ideal S1x1 .f32) (c : Ideal .f32) (u : Fin 1) (k : Fin 4096) :
    broadcastTo S1x4096 (mulf v6 (broadcast S1x1 c)) broadcasts_S1x1_S1x4096 (ix2 u k)
      = v6 (ix2 (0 : Fin 1) (0 : Fin 1)) * c := by
  rw [broadcastTo_one_row_apply]
  rfl

/-- The first six comparisons, added up from zero. -/
theorem pay5_apply (x : Vec Ideal S256x4096 .f32) (u : Fin 1) (k : Fin 4096) :
    k1_pay5 (F := Ideal) x (ix2 u k)
      = 0#32 + cbit (k1_pay3 (F := Ideal) x (ix2 u k)) (k1_pay4 (F := Ideal) x (ix2 (0 : Fin 1) (0 : Fin 1)) * pw 0)
        + cbit (k1_pay3 (F := Ideal) x (ix2 u k)) (k1_pay4 (F := Ideal) x (ix2 (0 : Fin 1) (0 : Fin 1)) * pw 1)
        + cbit (k1_pay3 (F := Ideal) x (ix2 u k)) (k1_pay4 (F := Ideal) x (ix2 (0 : Fin 1) (0 : Fin 1)) * pw 2)
        + cbit (k1_pay3 (F := Ideal) x (ix2 u k)) (k1_pay4 (F := Ideal) x (ix2 (0 : Fin 1) (0 : Fin 1)) * pw 3)
        + cbit (k1_pay3 (F := Ideal) x (ix2 u k)) (k1_pay4 (F := Ideal) x (ix2 (0 : Fin 1) (0 : Fin 1)) * pw 4)
        + cbit (k1_pay3 (F := Ideal) x (ix2 u k)) (k1_pay4 (F := Ideal) x (ix2 (0 : Fin 1) (0 : Fin 1)) * pw 5) := by
  unfold k1_pay5
  generalize k1_pay4 (F := Ideal) x = v6
  generalize k1_pay3 (F := Ideal) x = v4
  rw [addi_at, addi_at, addi_at, addi_at, addi_at, addi_at]
  rw [a_cmp_apply, a_cmp_apply, a_cmp_apply, a_cmp_apply, a_cmp_apply, a_cmp_apply]
  rw [a_word_0, a_word_1, a_word_2, a_word_3, a_word_4, a_word_5]
  rw [broadcast_apply]

/-- The seventh boundary, as a row. -/
theorem pay6_apply (x : Vec Ideal S256x4096 .f32) (u : Fin 1) (k : Fin 4096) :
    k1_pay6 (F := Ideal) x (ix2 u k) = k1_pay4 (F := Ideal) x (ix2 (0 : Fin 1) (0 : Fin 1)) * pw 6 := by
  unfold k1_pay6
  rw [a_bnd_apply, a_word_6]

/-! ### The threshold and the step -/

/-- The named constant denotes the rational 1/7. -/
theorem a_inv7 : Named.named (F := Ideal) κ "inv_7" (φ := .f32) 0x3E124925#32 = ((1 / 7 : ℝ) : EReal) :=
  IdealRules.named_const.ideal_named_scalar _ _ _ _ rfl

/-- max(e, |t · n|), entry by entry, for constants `e` and `n`. -/
theorem a_step_apply (t : FVec Ideal S1x4096 .f32) (e n : Ideal .f32) (i : S1x4096.Idx) :
    maximumf (broadcast S1x4096 e) (absf (mulf t (broadcast S1x4096 n))) i
      = max e (Cert.Spec.mag (t i * n)) := rfl

/-- The row of thresholds: the chunk's maximum times 2^(level word read signed, minus a constant). -/
theorem a_thr_apply (v6 : FVec Ideal S1x1 .f32) (w : IVec S1x4096 32) (c : Ideal .f32) (u : Fin 1) (k : Fin 4096) :
    mulf (broadcastTo S1x4096 v6 broadcasts_S1x1_S1x4096)
      (exp2 (subf (sitofp .f32 w) (broadcast S1x4096 c))) (ix2 u k)
      = v6 (ix2 (0 : Fin 1) (0 : Fin 1)) * Ideal.exp2 ((((w (ix2 u k)).toInt : ℝ) : EReal) - c) := by
  show broadcastTo S1x4096 v6 broadcasts_S1x1_S1x4096 (ix2 u k)
    * Ideal.exp2 ((((w (ix2 u k)).toInt : ℝ) : EReal) - c) = _
  rw [broadcastTo_one_row_apply]

/-- The last stage read at a column: the step of the threshold the level word gives. -/
theorem pay7_apply (v4 : FVec Ideal S1x4096 .f32) (v6 : FVec Ideal S1x1 .f32) (v43 : IVec S1x4096 32)
    (v46 : FVec Ideal S1x4096 .f32) (u : Fin 1) (k : Fin 4096) :
    k1_pay7 (F := Ideal) v4 v6 v43 v46 (ix2 u k)
      = Cert.Spec.scaleOf (v6 (ix2 (0 : Fin 1) (0 : Fin 1)) * Ideal.exp2 ((((
          v43 (ix2 u k) + cbit (v4 (ix2 u k)) (v46 (ix2 u k))
            + cbit (v4 (ix2 u k)) (v6 (ix2 (0 : Fin 1) (0 : Fin 1)) * pw 7)
            + cbit (v4 (ix2 u k)) (v6 (ix2 (0 : Fin 1) (0 : Fin 1)) * pw 8)
            + cbit (v4 (ix2 u k)) (v6 (ix2 (0 : Fin 1) (0 : Fin 1)) * pw 9)
            + cbit (v4 (ix2 u k)) (v6 (ix2 (0 : Fin 1) (0 : Fin 1)) * pw 10)
            + cbit (v4 (ix2 u k)) (v6 (ix2 (0 : Fin 1) (0 : Fin 1)) * pw 11)
            + cbit (v4 (ix2 u k)) (v6 (ix2 (0 : Fin 1) (0 : Fin 1)) * pw 12)).toInt : ℝ) : EReal)
          - ((13 : ℝ) : EReal))) := by
  unfold k1_pay7
  refine (a_step_apply _ _ _ _).trans ?_
  rw [a_inv7]
  refine congrArg (fun T : EReal => max (FloatOps.ofBits (F := Ideal) .f32 0x3089705F#32)
    (Cert.Spec.mag (T * ((1 / 7 : ℝ) : EReal)))) ?_
  refine (a_thr_apply _ _ _ u k).trans ?_
  rw [a_word_thirteen]
  refine congrArg (fun W : BitVec 32 => v6 (ix2 (0 : Fin 1) (0 : Fin 1))
    * Ideal.exp2 (((W.toInt : ℝ) : EReal) - ((13 : ℝ) : EReal))) ?_
  rw [addi_at, addi_at, addi_at, addi_at, addi_at, addi_at, addi_at]
  rw [a_cmp_row_apply]
  rw [a_cmp_apply, a_cmp_apply, a_cmp_apply, a_cmp_apply, a_cmp_apply, a_cmp_apply]
  rw [a_word_7, a_word_8, a_word_9, a_word_10, a_word_11, a_word_12]

/-! ### The quantization and the whole body -/

/-- The integer word 7 read as a float is the real 7. -/
theorem a_sitofp_7 : Scalar.sitofp (F := Ideal) .f32 7#32 = ((7 : ℝ) : EReal) := by
  rw [Ideal.scalar_sitofp_def]
  have h : (7#32 : BitVec 32).toInt = 7 := by decide
  rw [h]; norm_num

/-- The integer word 2³² − 8 read signed is −8, as a float the real −8. -/
theorem a_sitofp_neg8 : Scalar.sitofp (F := Ideal) .f32 4294967288#32 = ((-8 : ℝ) : EReal) := by
  rw [Ideal.scalar_sitofp_def]
  have h : (4294967288#32 : BitVec 32).toInt = -8 := by decide
  rw [h]; norm_num

/-- Divide by the step, round, clamp to −8 … 7, multiply back: the quantization of one entry with the step at
    that entry. -/
theorem a_quant_apply (x s : FVec Ideal S256x4096 .f32) (i : S256x4096.Idx) :
    truncf .bf16 (mulf (minimumf (broadcast S256x4096 (Scalar.sitofp (F := Ideal) .f32 7#32))
      (maximumf (broadcast S256x4096 (Scalar.sitofp (F := Ideal) .f32 4294967288#32)) (roundeven (divf x s)))) s)
      bitsLt_bf16_f32 i = Cert.Spec.qd (x i) (s i) := by
  show min (Scalar.sitofp (F := Ideal) .f32 7#32) (max (Scalar.sitofp (F := Ideal) .f32 4294967288#32)
    (Ideal.liftRound Ideal.roundHalfEven (Ideal.div (x i) (s i)))) * s i = _
  rw [a_sitofp_7, a_sitofp_neg8]
  rfl

/-- Two to the power (a natural number minus thirteen), as the body computes it from the level read as a
    real, is the integer power of two. -/
theorem a_exp2_level (L : ℕ) :
    Ideal.exp2 ((((L : ℤ) : ℝ) : EReal) - ((13 : ℝ) : EReal)) = (((2 : ℝ) ^ ((L : ℤ) - 13) : ℝ) : EReal) := by
  rw [← EReal.coe_sub]
  show ((Real.rpow 2 (((L : ℤ) : ℝ) - 13) : ℝ) : EReal) = _
  refine congrArg (fun r : ℝ => (r : EReal)) ?_
  have h : (((L : ℤ) : ℝ) - 13) = (((L : ℤ) - 13 : ℤ) : ℝ) := by push_cast; rfl
  rw [h]
  exact Real.rpow_intCast 2 _

/-- Entry (j, k) of what the body stores: activation (j, k) quantized with the step of column k of the chunk. -/
theorem pay1_apply (x : Vec Ideal S256x4096 .f32) (j : Fin 256) (k : Fin 4096) :
    k1_pay1 (F := Ideal) (k1_pay2 x) (k1_pay7 (k1_pay3 x) (k1_pay4 x) (k1_pay5 x) (k1_pay6 x))
        (k1_pay8 (k1_pay3 x) (k1_pay4 x) (k1_pay5 x) (k1_pay6 x)) (ix2 j k)
      = Cert.Spec.qd (x (ix2 j k)) (Cert.Spec.xscale (fun j' k' => x (ix2 j' k')) k) := by
  unfold k1_pay1 k1_pay8 k1_pay2
  rw [shapeCast_self]
  refine (a_quant_apply _ _ _).trans ?_
  refine congrArg (Cert.Spec.qd (x (ix2 j k))) ?_
  refine (broadcastTo_1b_ab_apply _ broadcasts_S1x4096_S256x4096 j k).trans ?_
  refine (pay7_apply _ _ _ _ 0 k).trans ?_
  unfold Cert.Spec.xscale Cert.Spec.chanThr
  refine congrArg Cert.Spec.scaleOf ?_
  rw [pay5_apply, pay6_apply, pay3_apply, pay4_apply]
  refine congrArg (Cert.Spec.chunkMax (fun j' k' => x (ix2 j' k')) * ·) ?_
  rw [count13]
  exact a_exp2_level _

end Cert.KernelIdeal.Pay

end
-- ==== Proof.PayMatmul.lean ====
/-
  The matrix-product body read at an index.

  The body casts each loaded block to its own shape (the identity), and multiplies the [512, 4096] block by the
  [4096, 1280] block into the zero accumulator: entry (a, b) of what it stores is the sum over the one contracted
  axis k of x(a, k) · w(k, b).
-/
import proofs.«171524_j8117488190107_2_alg».proof.Proof.Spec
import proofs.«171524_j8117488190107_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Pay

open Cert.KernelIdeal Cert.KernelIdeal.Gen

/-- The left operand's index at output index (a, b) and contraction index q: row a. -/
theorem mm_lhs_0 (i : S512x1280.Idx) (q : dot_S512x4096_S4096x1280_S512x1280_1_0_0_1_n_n.contr.Idx) :
    (dot_S512x4096_S4096x1280_S512x1280_1_0_0_1_n_n.lhsIdx i q 0).val = (i 0).val := by
  unfold DotDims.lhsIdx
  rw [dif_neg (show ¬(0 : Fin S512x4096.rank) ∈ dot_S512x4096_S4096x1280_S512x1280_1_0_0_1_n_n.lhsBatch by decide),
    dif_pos (show (0 : Fin S512x4096.rank) ∈ dot_S512x4096_S4096x1280_S512x1280_1_0_0_1_n_n.lhsNonContracting by decide)]
  rfl

/-- … column: the contracted coordinate. -/
theorem mm_lhs_1 (i : S512x1280.Idx) (q : dot_S512x4096_S4096x1280_S512x1280_1_0_0_1_n_n.contr.Idx) :
    (dot_S512x4096_S4096x1280_S512x1280_1_0_0_1_n_n.lhsIdx i q 1).val = (q ⟨0, by decide⟩).val :=
  dot_S512x4096_S4096x1280_S512x1280_1_0_0_1_n_n.lhsIdx_val_of_single rfl i q

/-- The right operand's index: row the contracted coordinate … -/
theorem mm_rhs_0 (i : S512x1280.Idx) (q : dot_S512x4096_S4096x1280_S512x1280_1_0_0_1_n_n.contr.Idx) :
    (dot_S512x4096_S4096x1280_S512x1280_1_0_0_1_n_n.rhsIdx i q 0).val = (q ⟨0, by decide⟩).val :=
  dot_S512x4096_S4096x1280_S512x1280_1_0_0_1_n_n.rhsIdx_val_of_single rfl i q

/-- … column b. -/
theorem mm_rhs_1 (i : S512x1280.Idx) (q : dot_S512x4096_S4096x1280_S512x1280_1_0_0_1_n_n.contr.Idx) :
    (dot_S512x4096_S4096x1280_S512x1280_1_0_0_1_n_n.rhsIdx i q 1).val = (i 1).val := by
  unfold DotDims.rhsIdx
  rw [dif_neg (show ¬(1 : Fin S4096x1280.rank) ∈ dot_S512x4096_S4096x1280_S512x1280_1_0_0_1_n_n.rhsBatch by decide),
    dif_pos (show (1 : Fin S4096x1280.rank) ∈ dot_S512x4096_S4096x1280_S512x1280_1_0_0_1_n_n.rhsNonContracting by decide)]
  rfl

/-- Entry (a, b) of the product body: the sum over k of x(a, k) · w(k, b). -/
theorem pay2_apply (x : Vec Ideal S512x4096 .bf16) (w : Vec Ideal S4096x1280 .bf16) (a : Fin 512) (b : Fin 1280) :
    k2_pay1 (F := Ideal) x w (ix2 a b) = ∑ k : Fin 4096, x (ix2 a k) * w (ix2 k b) := by
  unfold k2_pay1
  rw [shapeCast_self, shapeCast_self]
  simp only [matmul]
  rw [Ideal.matmul_constant_zero_apply,
    ← Equiv.sum_comp (ValueIdx.contrEquiv1 dot_S512x4096_S4096x1280_S512x1280_1_0_0_1_n_n 4096 rfl rfl).symm]
  refine Finset.sum_congr rfl fun k _ => ?_
  have hk := ValueIdx.contrEquiv1_symm_val dot_S512x4096_S4096x1280_S512x1280_1_0_0_1_n_n 4096 rfl rfl k
  have el : dot_S512x4096_S4096x1280_S512x1280_1_0_0_1_n_n.lhsIdx (ix2 a b)
      ((ValueIdx.contrEquiv1 dot_S512x4096_S4096x1280_S512x1280_1_0_0_1_n_n 4096 rfl rfl).symm k) = ix2 a k :=
    funext fun c => Fin.ext (by
      match c with
      | ⟨0, _⟩ => exact mm_lhs_0 _ _
      | ⟨1, _⟩ => exact (mm_lhs_1 _ _).trans hk)
  have er : dot_S512x4096_S4096x1280_S512x1280_1_0_0_1_n_n.rhsIdx (ix2 a b)
      ((ValueIdx.contrEquiv1 dot_S512x4096_S4096x1280_S512x1280_1_0_0_1_n_n 4096 rfl rfl).symm k) = ix2 k b :=
    funext fun c => Fin.ext (by
      match c with
      | ⟨0, _⟩ => exact (mm_rhs_0 _ _).trans hk
      | ⟨1, _⟩ => exact mm_rhs_1 _ _)
  rw [el, er]

end Cert.KernelIdeal.Pay

end
-- ==== Proof.RefChunks.lean ====
/-
  The reference's activations, cut into sixteen chunks of 256 rows, and the two maxima of a chunk.

  The chunked array is the merged activations re-laid: entry (c, j, k) is row 256·c + j, column k.  The
  column maximum of a chunk at column k is the largest magnitude over its 256 rows, and the chunk maximum is the
  largest magnitude over all rows and columns — a maximum over pairs (j, k), equal to the maximum over k of the
  column maxima because both are the least upper bound of the same finite family.
-/
import proofs.«171524_j8117488190107_2_alg».proof.Proof.Spec
import proofs.«171524_j8117488190107_2_alg».proof.Proof.Gen.ReferenceIdeal.Read
import Idealize.ShloMosaic.Lib.KernelVsHost

noncomputable section

open Idealize.ShloMosaic Idealize.ShloMosaic.ValueIdx

namespace Cert.ReferenceIdeal.RefValue

open Cert.ReferenceIdeal Cert.ReferenceIdeal.Read Cert.ReferenceIdeal.Gen

/-! ### The chunks -/

/-- A pad by nothing on every side is the identity. -/
theorem pad_none_apply (y : S4096x4096.Idx → EReal) (v : S_.Idx → EReal) (i : S4096x4096.Idx) :
    pad S4096x4096 ![0, 0] ![0, 0] ![0, 0] y v pads_S4096x4096_S4096x4096_000_000 h_S_ i = y i :=
  pad_apply_of_inside _ _ _ y v _ _ i i fun a => by
    match a with
    | ⟨0, _⟩ => show (i 0).val = 0 + (i 0).val * (0 + 1); omega
    | ⟨1, _⟩ => show (i 1).val = 0 + (i 1).val * (0 + 1); omega

/-- Entry (c, j, k) of the chunked activations is row 256·c + j, column k of the merged ones. -/
theorem chunks_apply (x0 : (⟨S2x2048x4096, .f32⟩ : BufTy).Contents (Elt Ideal)) (c : Fin 16) (j : Fin 256) (k : Fin 4096) :
    val_main_v16 (F := Ideal) x0 (ix3 c j k) = Cert.Spec.merged x0 (ix2 (Cert.Spec.rowOf c j) k) := by
  have hi : idx_main_v16 (ix3 c j k) = ix2 (Cert.Spec.rowOf c j) k := by
    funext a
    match a with
    | ⟨0, _⟩ =>
      exact Fin.ext (by
        show ((c.val * 256 + j.val) * 4096 + k.val) / 4096 = 256 * c.val + j.val
        have := k.isLt; omega)
    | ⟨1, _⟩ =>
      exact Fin.ext (by
        show ((c.val * 256 + j.val) * 4096 + k.val) % 4096 = k.val
        have := k.isLt; omega)
  rw [val_main_v16_apply, hi]
  unfold val_main_v15
  rw [pad_none_apply]
  rfl

/-! ### Maxima as least upper bounds -/

/-- The f32 word 0xFF800000 is −∞. -/
theorem chunk_ofBits_bot : Ideal.ofBits .f32 0xFF800000#32 = ⊥ := by simp [Ideal.ofBits, Ideal.ieee]

/-- A maximum from ⊥ is below `z` exactly when every term is. -/
theorem chunk_fold_max_le {ι : Type} (s : Finset ι) (f : ι → EReal) (z : EReal) :
    s.fold max ⊥ f ≤ z ↔ ∀ i ∈ s, f i ≤ z := by
  rw [Finset.fold_max_le]
  exact ⟨fun h => h.2, fun h => ⟨bot_le, h⟩⟩

/-- The magnitude of entry (c, j, k) of the chunked activations. -/
theorem chunk_abs_apply (x0 : (⟨S2x2048x4096, .f32⟩ : BufTy).Contents (Elt Ideal)) (c : Fin 16) (j : Fin 256) (k : Fin 4096) :
    val_main_v17 (F := Ideal) x0 (ix3 c j k)
      = Cert.Spec.mag (Cert.Spec.chunk (Cert.Spec.merged x0) c j k) := by
  rw [val_main_v17_apply, chunks_apply]
  rfl

/-- A maximum over the rows of [16, 256, 4096], read at (c, k): the maximum over the 256 rows. -/
theorem colmax_reduce_apply (y : S16x256x4096.Idx → EReal) (v : S_.Idx → EReal) (c : Fin 16) (k : Fin 4096) :
    Host.reduce (FloatOps.maximumf (F := Ideal) (φ := .f32)) y v reducesTo_S16x256x4096_S16x4096_d1 h_S_ (ix2 c k)
      = Finset.univ.fold max (v ix0) fun j : Fin 256 => y (ix3 c j k) := by
  have h : S16x256x4096.Reduces [1] S16x4096 := by decide
  have hl : ∀ j : Fin 256, h.lift (ix2 c k) j = ix3 c j k := fun j => funext fun a => by
    match a with
    | ⟨0, _⟩ => exact Fin.ext rfl
    | ⟨1, _⟩ => exact Fin.ext rfl
    | ⟨2, _⟩ => exact Fin.ext rfl
  refine (Host.reduce_eq_fold_single _ y v reducesTo_S16x256x4096_S16x4096_d1 h h_S_ (ix2 c k)).trans ?_
  rw [eq_ix0 (Shape.Idx.first h_S_)]
  exact congrArg (fun f => Finset.fold max (v ix0) f Finset.univ) (funext fun j => congrArg y (hl j))

/-- The reference's column maxima are the specification's. -/
theorem colmax_eq (x0 : (⟨S2x2048x4096, .f32⟩ : BufTy).Contents (Elt Ideal)) (c : Fin 16) (k : Fin 4096) :
    val_main_v19 (F := Ideal) x0 (ix2 c k) = Cert.Spec.colMax (Cert.Spec.chunk (Cert.Spec.merged x0) c) k := by
  unfold val_main_v19
  refine (colmax_reduce_apply _ _ c k).trans ?_
  rw [val_main_cst_5_apply, Ideal.ofBits_def, chunk_ofBits_bot]
  exact congrArg (fun f => Finset.fold max ⊥ f Finset.univ) (funext fun j => chunk_abs_apply x0 c j k)

/-- An index of [16, 256, 4096] drops, under the reduction of its two trailing axes, to `c` exactly when its leading
    coordinate is `c`. -/
theorem chunk_drop_iff (i : S16x256x4096.Idx) (c : Fin 16) :
    reducesTo_S16x256x4096_S16_d1_2.drop i = ix1 c ↔ (i 0).val = c.val := by
  have hd : ((reducesTo_S16x256x4096_S16_d1_2.drop i (0 : Fin 1) : Fin 16) : Nat) = (i 0).val :=
    Shape.ReducesTo.drop_apply_val_of_eq reducesTo_S16x256x4096_S16_d1_2 i (0 : Fin 1) (0 : Fin 3)
  constructor
  · intro h
    rw [← hd, h]
  · intro h
    funext b
    match b with
    | ⟨0, _⟩ => exact Fin.ext (hd.trans h)

/-- The reference's chunk maximum — a maximum over all rows and columns at once — is the specification's, the maximum
    over the columns of the column maxima: both are the least upper bound of the chunk's magnitudes. -/
theorem chunkmax_eq (x0 : (⟨S2x2048x4096, .f32⟩ : BufTy).Contents (Elt Ideal)) (c : Fin 16) :
    val_main_v18 (F := Ideal) x0 (ix1 c) = Cert.Spec.chunkMax (Cert.Spec.chunk (Cert.Spec.merged x0) c) := by
  unfold val_main_v18
  refine (Host.reduce_eq_fold _ _ _ reducesTo_S16x256x4096_S16_d1_2 h_S_ (ix1 c)).trans ?_
  rw [val_main_cst_4_apply, Ideal.ofBits_def, chunk_ofBits_bot]
  refine eq_of_forall_ge_iff fun z => ?_
  unfold Cert.Spec.chunkMax Cert.Spec.colMax Cert.Spec.maxOver
  show Finset.fold max ⊥ (val_main_v17 (F := Ideal) x0) _ ≤ z ↔ _
  rw [chunk_fold_max_le, chunk_fold_max_le]
  constructor
  · intro h k _
    rw [chunk_fold_max_le]
    intro j _
    rw [← chunk_abs_apply]
    exact h _ (Finset.mem_filter.2 ⟨Finset.mem_univ _, (chunk_drop_iff _ c).2 rfl⟩)
  · intro h i hi
    have hc : (i 0).val = c.val := (chunk_drop_iff i c).1 (Finset.mem_filter.1 hi).2
    obtain ⟨j, k, rfl⟩ : ∃ (j : Fin 256) (k : Fin 4096), i = ix3 c j k :=
      ⟨i 1, i 2, funext fun a => by
        match a with
        | ⟨0, _⟩ => exact Fin.ext hc
        | ⟨1, _⟩ => rfl
        | ⟨2, _⟩ => rfl⟩
    rw [chunk_abs_apply]
    exact (chunk_fold_max_le _ _ z).1 (h k (Finset.mem_univ _)) j (Finset.mem_univ _)

end Cert.ReferenceIdeal.RefValue

end
-- ==== Proof.RefLevels.lean ====
/-
  The reference's per-chunk column step from the chunk's two maxima, at the extended reals.

  The thirteen boundaries are the chunk's largest magnitude divided by 2^(13 − i), i = 0 … 12: the product with
  2^(i − 13). The exponents are 32-bit words 13 − i that do not wrap. A column's level is counted by adding up, over
  the thirteen boundaries, the 0/1 words of "the column's largest magnitude exceeds the boundary": the word of the
  number of boundaries exceeded, at most 13. The column's threshold is the chunk's largest magnitude divided by
  2^(13 − level), the product with 2^(level − 13); the step is the larger of ε and the magnitude of the threshold
  divided by 7.
-/
import proofs.«171524_j8117488190107_2_alg».proof.Proof.Spec
import proofs.«171524_j8117488190107_2_alg».proof.Proof.Gen.ReferenceIdeal.Read
import Idealize.ShloMosaic.PureOps.Reduce

noncomputable section

namespace Cert.ReferenceIdeal.RefValue

open Cert.ReferenceIdeal Cert.ReferenceIdeal.Read Idealize.ShloMosaic Idealize.ShloMosaic.ValueIdx

/-! ### Words and constants -/

/-- The word 0x40E00000 denotes the real 7. -/
theorem lvl_ofBits_seven : Ideal.ofBits .f32 0x40E00000#32 = ((7 : ℝ) : EReal) := by
  simp [Ideal.ofBits, Ideal.ieee, -EReal.coe_mul]; norm_num

/-- The word 0x40000000 denotes the real 2. -/
theorem lvl_ofBits_two : Ideal.ofBits .f32 0x40000000#32 = ((2 : ℝ) : EReal) := by
  simp [Ideal.ofBits, Ideal.ieee, -EReal.coe_mul]; norm_num

/-- Dividing by 2 to an integer power is multiplying by 2 to the opposite power. -/
theorem lvl_div_two_pow (M : EReal) (n : ℤ) :
    Ideal.div M (Ideal.pow (Ideal.ofBits .f32 0x40000000#32) (((n : ℝ)) : EReal)) = M * (((2 : ℝ) ^ (-n) : ℝ) : EReal) := by
  rw [lvl_ofBits_two, Ideal.pow_coe_coe]
  have h2 : Real.rpow 2 (n : ℝ) = (2 : ℝ) ^ n := Real.rpow_intCast 2 n
  rw [h2, Ideal.div_coe (zpow_ne_zero n (by norm_num))]
  rw [one_div, zpow_neg]

/-- For n ≤ 13 the 32-bit difference 13 − n does not wrap: read signed it is the integer 13 − n. -/
theorem lvl_sub_toInt (n : ℕ) (hn : n ≤ 13) : (IntOp.subi (13#32) (BitVec.ofNat 32 n)).toInt = 13 - (n : ℤ) := by
  have h : ∀ m : Fin 14, (IntOp.subi (13#32) (BitVec.ofNat 32 m.val)).toInt = 13 - (m.val : ℤ) := by decide
  exact h ⟨n, by omega⟩

/-- A one-bit word widened to 32 bits is the word of 0 or 1. -/
theorem lvl_bool_word (b : Bool) : (BitVec.ofBool b).setWidth 32 = BitVec.ofNat 32 (if b then 1 else 0) := by
  cases b <;> rfl

/-- Adding up the 32-bit words of natural numbers gives the word of their sum. -/
theorem lvl_fold_ofNat {ι : Type} [DecidableEq ι] (s : Finset ι) (g : ι → ℕ) :
    Finset.fold IntOp.addi (0#32) (fun i => BitVec.ofNat 32 (g i)) s = BitVec.ofNat 32 (∑ i ∈ s, g i) := by
  induction s using Finset.induction_on with
  | empty => rfl
  | insert a s ha ih =>
    rw [Finset.fold_insert ha, ih, Finset.sum_insert ha]
    show BitVec.ofNat 32 (g a) + BitVec.ofNat 32 (∑ i ∈ s, g i) = _
    rw [← BitVec.ofNat_add]

/-- Adding up the widened truth values of a predicate over `Fin n` gives the word of the number of its members. -/
theorem lvl_fold_bool {n : ℕ} (p : Fin n → Prop) (d1 d2 : DecidablePred p) :
    Finset.fold IntOp.addi (0#32) (fun i => (BitVec.ofBool (@decide (p i) (d1 i))).setWidth 32) (Finset.univ : Finset (Fin n))
      = BitVec.ofNat 32 (@Finset.filter _ p d2 Finset.univ).card := by
  obtain rfl : d1 = d2 := Subsingleton.elim _ _
  have e : (fun i => (BitVec.ofBool (@decide (p i) (d1 i))).setWidth 32) = fun i => BitVec.ofNat 32 (if p i then 1 else 0) := by
    funext i
    rw [lvl_bool_word]
    by_cases h : p i <;> simp [h]
  rw [e, lvl_fold_ofNat, Finset.card_filter]

/-! ### The thirteen boundaries -/

/-- The reference's boundary `i` of chunk `c`: the chunk's largest magnitude times 2^(i − 13). -/
theorem lvl_boundary (x0 : (⟨S2x2048x4096, .f32⟩ : BufTy).Contents (Elt Ideal))
    (h18 : ∀ c : Fin 16, val_main_v18 (F := Ideal) x0 (ix1 c) = Cert.Spec.chunkMax (Cert.Spec.chunk (Cert.Spec.merged x0) c))
    (c : Fin 16) (i : Fin 13) :
    val_main_v31 (F := Ideal) x0 (ix2 c i) = Cert.Spec.boundary (Cert.Spec.chunk (Cert.Spec.merged x0) c) i := by
  have e29 : idx_main_v29 (ix2 c i) = ix2 c (0 : Fin 1) := funext fun a => by
    match a with | ⟨0, _⟩ => rfl | ⟨1, _⟩ => rfl
  have e21 : idx_main_v21 (ix2 c (0 : Fin 1)) = ix1 c := funext fun a => by
    match a with | ⟨0, _⟩ => rfl
  have e30 : idx_main_v30 (ix2 c i) = ix2 (0 : Fin 1) i := funext fun a => by
    match a with | ⟨0, _⟩ => rfl | ⟨1, _⟩ => rfl
  have e28 : idx_main_v28 (ix2 (0 : Fin 1) i) = ix1 i := funext fun a => by
    match a with | ⟨0, _⟩ => rfl
  rw [val_main_v31_apply, val_main_v29_apply, e29, val_main_v21_apply, e21, h18, val_main_v30_apply, e30,
    val_main_v28_apply, e28, val_main_v27_apply, val_main_v26_apply, val_main_cst_7_apply, val_main_v25_apply,
    val_main_v23_apply, val_main_v22_apply, val_main_c_6_apply, val_main_v20_apply]
  show Ideal.div _ (Ideal.pow (Ideal.ofBits .f32 0x40000000#32)
    ((((IntOp.subi (13#32) (BitVec.ofNat 32 i.val)).toInt : ℤ) : ℝ) : EReal)) = _
  rw [lvl_sub_toInt i.val (by have := i.isLt; omega), lvl_div_two_pow, neg_sub]
  rfl

/-! ### The level of a column -/

/-- Column (c, k) with boundary `i` put back is the index (c, k, i). -/
theorem lvl_lift (h : S16x4096x13.Reduces [2] S16x4096) (c : Fin 16) (k : Fin 4096) (i : Fin 13) :
    h.lift (ix2 c k) i = ix3 c k i := by
  funext a; apply Fin.ext
  fin_cases a <;> rfl

/-- The reference's count of the boundaries a column's largest magnitude exceeds is the word of the column's level. -/
theorem lvl_level (x0 : (⟨S2x2048x4096, .f32⟩ : BufTy).Contents (Elt Ideal))
    (h19 : ∀ (c : Fin 16) (k : Fin 4096), val_main_v19 (F := Ideal) x0 (ix2 c k) = Cert.Spec.colMax (Cert.Spec.chunk (Cert.Spec.merged x0) c) k)
    (h18 : ∀ c : Fin 16, val_main_v18 (F := Ideal) x0 (ix1 c) = Cert.Spec.chunkMax (Cert.Spec.chunk (Cert.Spec.merged x0) c))
    (c : Fin 16) (k : Fin 4096) :
    val_main_v38 (F := Ideal) x0 (ix2 c k) = BitVec.ofNat 32 (Cert.Spec.level (Cert.Spec.chunk (Cert.Spec.merged x0) c) k) := by
  have h : S16x4096x13.Reduces [2] S16x4096 := by decide
  unfold val_main_v38
  generalize hy : val_main_v37 (F := Ideal) x0 = y
  refine (Host.reduce_eq_fold_single (α := BitVec 32) (s := S16x4096x13) (t := S16x4096) (a := (2 : Fin 3))
    IntOp.addi y (val_main_c_8 (F := Ideal)) Gen.reducesTo_S16x4096x13_S16x4096_d2 h Gen.h_S_ (ix2 c k)).trans ?_
  have hf : (y ∘ h.lift (ix2 c k) : Fin 13 → BitVec 32) = fun i : Fin 13 =>
      (BitVec.ofBool (decide (Cert.Spec.boundary (Cert.Spec.chunk (Cert.Spec.merged x0) c) i
        < Cert.Spec.colMax (Cert.Spec.chunk (Cert.Spec.merged x0) c) k))).setWidth 32 := by
    funext i
    have e34 : idx_main_v34 (ix3 c k i) = ix3 c k (0 : Fin 1) := funext fun a => by
      match a with | ⟨0, _⟩ => rfl | ⟨1, _⟩ => rfl | ⟨2, _⟩ => rfl
    have e32 : idx_main_v32 (ix3 c k (0 : Fin 1)) = ix2 c k := funext fun a => by
      match a with | ⟨0, _⟩ => rfl | ⟨1, _⟩ => rfl
    have e35 : idx_main_v35 (ix3 c k i) = ix3 c (0 : Fin 1) i := funext fun a => by
      match a with | ⟨0, _⟩ => rfl | ⟨1, _⟩ => rfl | ⟨2, _⟩ => rfl
    have e33 : idx_main_v33 (ix3 c (0 : Fin 1) i) = ix2 c i := funext fun a => by
      match a with | ⟨0, _⟩ => rfl | ⟨1, _⟩ => rfl
    show y (h.lift (ix2 c k) i) = _
    rw [lvl_lift h c k i, ← hy]
    show val_main_v37 (F := Ideal) x0 (ix3 c k i) = _
    rw [val_main_v37_apply, val_main_v36_apply, val_main_v34_apply, e34, val_main_v32_apply, e32, h19,
      val_main_v35_apply, e35, val_main_v33_apply, e33, lvl_boundary x0 h18]
    rfl
  refine (congrArg (fun f => Finset.fold IntOp.addi (0#32) f (Finset.univ : Finset (Fin 13))) hf).trans ?_
  exact lvl_fold_bool _ _ _

/-! ### The step of a column -/

/-- The reference's step of column `k` of chunk `c`, given the chunk's column maxima and its largest magnitude. -/
theorem xscale_eq_of (x0 : (⟨S2x2048x4096, .f32⟩ : BufTy).Contents (Elt Ideal))
    (h19 : ∀ (c : Fin 16) (k : Fin 4096), val_main_v19 (F := Ideal) x0 (ix2 c k) = Cert.Spec.colMax (Cert.Spec.chunk (Cert.Spec.merged x0) c) k)
    (h18 : ∀ c : Fin 16, val_main_v18 (F := Ideal) x0 (ix1 c) = Cert.Spec.chunkMax (Cert.Spec.chunk (Cert.Spec.merged x0) c))
    (c : Fin 16) (k : Fin 4096) :
    val_main_v52 (F := Ideal) x0 (ix3 c (0 : Fin 1) k) = Cert.Spec.xscale (Cert.Spec.chunk (Cert.Spec.merged x0) c) k := by
  have e50 : idx_main_v50 (ix3 c (0 : Fin 1) k) = ix2 c k := funext fun a => by
    match a with | ⟨0, _⟩ => rfl | ⟨1, _⟩ => rfl
  have e46 : idx_main_v46 (ix2 c k) = ix2 c (0 : Fin 1) := funext fun a => by
    match a with | ⟨0, _⟩ => rfl | ⟨1, _⟩ => rfl
  have e39 : idx_main_v39 (ix2 c (0 : Fin 1)) = ix1 c := funext fun a => by
    match a with | ⟨0, _⟩ => rfl
  have hL : Cert.Spec.level (Cert.Spec.chunk (Cert.Spec.merged x0) c) k ≤ 13 := by
    unfold Cert.Spec.level
    exact (Finset.card_le_univ _).trans (by simp)
  rw [val_main_v52_apply, val_main_call4_v1_apply, val_main_call4_v0_apply, val_main_cst_12_apply, val_main_v51_apply,
    val_main_v50_apply, e50, val_main_v49_apply, val_main_v48_apply, val_main_cst_11_apply, val_main_v47_apply,
    val_main_v46_apply, e46, val_main_v39_apply, e39, h18, val_main_v45_apply, val_main_v44_apply,
    val_main_cst_10_apply, val_main_v43_apply, val_main_v41_apply, val_main_v40_apply, val_main_c_9_apply,
    lvl_level x0 h19 h18]
  have hs : FloatOps.sitofp (F := Ideal) .f32
      (IntOp.subi (13#32) (BitVec.ofNat 32 (Cert.Spec.level (Cert.Spec.chunk (Cert.Spec.merged x0) c) k)))
      = (((13 - (Cert.Spec.level (Cert.Spec.chunk (Cert.Spec.merged x0) c) k : ℤ) : ℤ) : ℝ) : EReal) := by
    show ((((IntOp.subi (13#32) (BitVec.ofNat 32 (Cert.Spec.level (Cert.Spec.chunk (Cert.Spec.merged x0) c) k))).toInt : ℤ) : ℝ) : EReal) = _
    rw [lvl_sub_toInt _ hL]
  rw [hs]
  simp only [Ideal.maximumf_def, Ideal.hostAbsf_def, Ideal.hostDivf_def, Ideal.hostPowf_def, Ideal.ofBits_def]
  rw [lvl_div_two_pow, lvl_ofBits_seven, Ideal.div_coe (by norm_num), neg_sub]
  rfl

end Cert.ReferenceIdeal.RefValue

end
-- ==== Proof.RefTail.lean ====
/-
  The reference's weights side and its tail, at the extended reals.

  Weights: the row maximum of the magnitudes, divided by 7 (the product with 1/7), its magnitude raised to at least ε,
  is the row's step; an entry divided by its row's step, rounded half to even, clamped to −8 … 7 and scaled back is
  the quantized entry; the transpose puts entry (v, k) at (k, v).

  Tail: given the chunked activations and the per-chunk column steps, the quantized activations at chunk c, row j are
  the quantized entry of row 256·c + j; the contraction over k is the product of the two approximations; the two
  final re-layings read [16, 256, 32000] as [4096, 32000] and that as [2, 2048, 32000].
-/
import proofs.«171524_j8117488190107_2_alg».proof.Proof.Spec
import proofs.«171524_j8117488190107_2_alg».proof.Proof.Gen.ReferenceIdeal.Read
import Idealize.ShloMosaic.PureOps.Reduce

noncomputable section

namespace Cert.ReferenceIdeal.RefValue

open Cert.ReferenceIdeal Cert.ReferenceIdeal.Read Idealize.ShloMosaic Idealize.ShloMosaic.ValueIdx

/-- The word 0x40E00000 denotes the real 7. -/
theorem ofBits_seven : Ideal.ofBits .f32 0x40E00000#32 = ((7 : ℝ) : EReal) := by
  simp [Ideal.ofBits, Ideal.ieee, -EReal.coe_mul]; norm_num

/-- The word 0xFF800000 denotes −∞. -/
theorem ofBits_negInf : Ideal.ofBits .f32 0xFF800000#32 = (⊥ : EReal) := by
  simp [Ideal.ofBits, Ideal.ieee]

/-- Row `v` with column `k` put back is the index (v, k). -/
theorem lift_row (h : S32000x4096.Reduces [1] S32000) (v : Fin 32000) (k : Fin (S32000x4096.size 1)) :
    h.lift (ix1 v) k = ix2 v (⟨k.val, k.isLt⟩ : Fin 4096) := by
  funext c; apply Fin.ext
  fin_cases c <;> rfl

/-- The reference's row maximum of the magnitudes, at row `v`. -/
theorem rowmax_eq (x1 : (⟨S32000x4096, .f32⟩ : BufTy).Contents (Elt Ideal)) (v : Fin 32000) :
    val_main_v1 (F := Ideal) x1 (ix1 v) = Cert.Spec.maxOver fun k : Fin 4096 => Cert.Spec.mag (x1 (ix2 v k)) := by
  have h : S32000x4096.Reduces [1] S32000 := by decide
  unfold val_main_v1
  generalize hy : val_main_v0 (F := Ideal) x1 = y
  refine (Host.reduce_eq_fold_single (α := Ideal .f32) (s := S32000x4096) (t := S32000) (a := (1 : Fin 2))
    FloatOps.maximumf y (val_main_cst (F := Ideal)) Gen.reducesTo_S32000x4096_S32000_d1 h Gen.h_S_ (ix1 v)).trans ?_
  have hf : (y ∘ h.lift (ix1 v)) = fun k : Fin 4096 => Cert.Spec.mag (x1 (ix2 v k)) := by
    funext k
    show y (h.lift (ix1 v) k) = _
    rw [lift_row h v k, ← hy]
    rfl
  rw [hf]
  show Finset.fold max (Ideal.ofBits .f32 0xFF800000#32) _ _ = _
  rw [ofBits_negInf]
  rfl

/-- The reference's step of row `v` of the weights. -/
theorem wscale_eq (x1 : (⟨S32000x4096, .f32⟩ : BufTy).Contents (Elt Ideal)) (v : Fin 32000) :
    val_main_v6 (F := Ideal) x1 (ix2 v (0 : Fin 1)) = Cert.Spec.wscale (Cert.Spec.wrow x1 v) := by
  have e2 : idx_main_v2 (ix2 v (0 : Fin 1)) = ix1 v := funext fun a => by match a with | ⟨0, _⟩ => rfl
  rw [val_main_v6_apply, val_main_call0_v1_apply, val_main_call0_v0_apply, val_main_cst_1_apply,
    val_main_v5_apply, val_main_v4_apply, val_main_v2_apply, val_main_v3_apply, val_main_cst_0_apply, e2, rowmax_eq]
  simp only [Ideal.maximumf_def, Ideal.hostAbsf_def, Ideal.hostDivf_def, Ideal.ofBits_def]
  rw [ofBits_seven, Ideal.div_coe (by norm_num)]
  rfl

/-- The integer word 7, converted, is the real 7. -/
theorem sitofp_seven : FloatOps.sitofp (F := Ideal) .f32 (7#32 : BitVec 32) = ((7 : ℝ) : EReal) := by
  show ((((7#32 : BitVec 32).toInt : ℤ) : ℝ) : EReal) = _
  rw [show (7#32 : BitVec 32).toInt = 7 by decide]
  norm_num

/-- The integer word 0xFFFFFFF8, read signed and converted, is the real −8. -/
theorem sitofp_negEight : FloatOps.sitofp (F := Ideal) .f32 (4294967288#32 : BitVec 32) = ((-8 : ℝ) : EReal) := by
  show ((((4294967288#32 : BitVec 32).toInt : ℤ) : ℝ) : EReal) = _
  rw [show (4294967288#32 : BitVec 32).toInt = -8 by decide]
  norm_num

/-- The reference's quantized weights, transposed: entry (k, v). -/
theorem wq_eq (x1 : (⟨S32000x4096, .f32⟩ : BufTy).Contents (Elt Ideal)) (k : Fin 4096) (v : Fin 32000) :
    val_main_v13 (F := Ideal) x1 (ix2 k v) = Cert.Spec.Wq x1 k v := by
  have e13 : idx_main_v13 (ix2 k v) = ix2 v k := funext fun a => by
    match a with | ⟨0, _⟩ => rfl | ⟨1, _⟩ => rfl
  have e11 : idx_main_v11 (ix2 v k) = ix2 v (0 : Fin 1) := funext fun a => by
    match a with | ⟨0, _⟩ => rfl | ⟨1, _⟩ => rfl
  have e7 : idx_main_v7 (ix2 v k) = ix2 v (0 : Fin 1) := funext fun a => by
    match a with | ⟨0, _⟩ => rfl | ⟨1, _⟩ => rfl
  rw [val_main_v13_apply, e13, val_main_v12_apply, val_main_v10_apply, val_main_call2_v4_apply,
    val_main_call2_v3_apply, val_main_c_2_apply, val_main_call2_v2_apply, val_main_call2_v1_apply,
    val_main_call2_v0_apply, val_main_c_apply, val_main_v9_apply, val_main_v8_apply, val_main_v7_apply, e7,
    val_main_v11_apply, e11, wscale_eq, sitofp_seven, sitofp_negEight]
  rfl

/-- The chunk of row 256·c + j is c. -/
theorem chunkOf_rowOf (c : Fin 16) (j : Fin 256) : Cert.Spec.chunkOf (Cert.Spec.rowOf c j) = c := by
  apply Fin.ext
  show (256 * c.val + j.val) / 256 = c.val
  have := j.isLt
  omega

/-- The reference's quantized activations at chunk `c`, row `j`, column `k`, given the chunked activations and the
    per-chunk column steps. -/
theorem xq_eq_of (x0 : (⟨S2x2048x4096, .f32⟩ : BufTy).Contents (Elt Ideal))
    (h16 : ∀ (c : Fin 16) (j : Fin 256) (k : Fin 4096), val_main_v16 (F := Ideal) x0 (ix3 c j k) = Cert.Spec.merged x0 (ix2 (Cert.Spec.rowOf c j) k))
    (hx : ∀ (c : Fin 16) (k : Fin 4096), val_main_v52 (F := Ideal) x0 (ix3 c (0 : Fin 1) k) = Cert.Spec.xscale (Cert.Spec.chunk (Cert.Spec.merged x0) c) k)
    (c : Fin 16) (j : Fin 256) (k : Fin 4096) :
    val_main_v58 (F := Ideal) x0 (ix3 c j k) = Cert.Spec.Xq (Cert.Spec.merged x0) (Cert.Spec.rowOf c j) k := by
  have e57 : idx_main_v57 (ix3 c j k) = ix3 c (0 : Fin 1) k := funext fun a => by
    match a with | ⟨0, _⟩ => rfl | ⟨1, _⟩ => rfl | ⟨2, _⟩ => rfl
  have e53 : idx_main_v53 (ix3 c j k) = ix3 c (0 : Fin 1) k := funext fun a => by
    match a with | ⟨0, _⟩ => rfl | ⟨1, _⟩ => rfl | ⟨2, _⟩ => rfl
  rw [val_main_v58_apply, val_main_v56_apply, val_main_call6_v4_apply, val_main_call6_v3_apply, val_main_c_14_apply,
    val_main_call6_v2_apply, val_main_call6_v1_apply, val_main_call6_v0_apply, val_main_c_13_apply,
    val_main_v55_apply, val_main_v54_apply, val_main_v53_apply, e53, val_main_v57_apply, e57, h16 c j k, hx c k,
    sitofp_seven, sitofp_negEight]
  unfold Cert.Spec.Xq
  rw [chunkOf_rowOf]
  rfl

/-- The reference's product re-laid as [4096, 32000], entry (r, v): the product of the two approximations. -/
theorem logits_eq_of (x0 : (⟨S2x2048x4096, .f32⟩ : BufTy).Contents (Elt Ideal)) (x1 : (⟨S32000x4096, .f32⟩ : BufTy).Contents (Elt Ideal))
    (h16 : ∀ (c : Fin 16) (j : Fin 256) (k : Fin 4096), val_main_v16 (F := Ideal) x0 (ix3 c j k) = Cert.Spec.merged x0 (ix2 (Cert.Spec.rowOf c j) k))
    (hx : ∀ (c : Fin 16) (k : Fin 4096), val_main_v52 (F := Ideal) x0 (ix3 c (0 : Fin 1) k) = Cert.Spec.xscale (Cert.Spec.chunk (Cert.Spec.merged x0) c) k)
    (r : Fin 4096) (v : Fin 32000) :
    val_main_v60 (F := Ideal) x0 x1 (ix2 r v) = Cert.Spec.logits (Cert.Spec.merged x0) x1 r v := by
  have hj : r.val % 256 < 256 := Nat.mod_lt _ (by norm_num)
  have e60 : idx_main_v60 (ix2 r v) = ix3 (Cert.Spec.chunkOf r) (⟨r.val % 256, hj⟩ : Fin 256) v := funext fun a => Fin.ext (by
    have hr := r.isLt; have hv := v.isLt
    match a with
    | ⟨0, _⟩ => show (r.val * 32000 + v.val) / 8192000 = r.val / 256; omega
    | ⟨1, _⟩ => show (r.val * 32000 + v.val) / 32000 % 256 = r.val % 256; omega
    | ⟨2, _⟩ => show (r.val * 32000 + v.val) % 32000 = v.val; omega)
  have hrow : Cert.Spec.rowOf (Cert.Spec.chunkOf r) (⟨r.val % 256, hj⟩ : Fin 256) = r := Fin.ext (by
    show 256 * (r.val / 256) + r.val % 256 = r.val; omega)
  rw [val_main_v60_apply, e60, val_main_v59_apply]
  unfold Cert.Spec.logits
  refine Finset.sum_congr rfl fun k _ => ?_
  have el : lidx_main_v59 (ix3 (Cert.Spec.chunkOf r) (⟨r.val % 256, hj⟩ : Fin 256) v) k
      = ix3 (Cert.Spec.chunkOf r) (⟨r.val % 256, hj⟩ : Fin 256) k := funext fun a => by
    match a with | ⟨0, _⟩ => rfl | ⟨1, _⟩ => rfl | ⟨2, _⟩ => rfl
  have er : ridx_main_v59 (ix3 (Cert.Spec.chunkOf r) (⟨r.val % 256, hj⟩ : Fin 256) v) k = ix2 k v := funext fun a => by
    match a with | ⟨0, _⟩ => rfl | ⟨1, _⟩ => rfl
  rw [el, er, xq_eq_of x0 h16 hx, wq_eq, hrow]

/-- The reference's result, given the chunked activations and the per-chunk column steps. -/
theorem result_eq_of (x0 : (⟨S2x2048x4096, .f32⟩ : BufTy).Contents (Elt Ideal)) (x1 : (⟨S32000x4096, .f32⟩ : BufTy).Contents (Elt Ideal))
    (h16 : ∀ (c : Fin 16) (j : Fin 256) (k : Fin 4096), val_main_v16 (F := Ideal) x0 (ix3 c j k) = Cert.Spec.merged x0 (ix2 (Cert.Spec.rowOf c j) k))
    (hx : ∀ (c : Fin 16) (k : Fin 4096), val_main_v52 (F := Ideal) x0 (ix3 c (0 : Fin 1) k) = Cert.Spec.xscale (Cert.Spec.chunk (Cert.Spec.merged x0) c) k) :
    val_main_v61 (F := Ideal) x0 x1 = Cert.Spec.result x0 x1 := by
  have h60 : val_main_v60 (F := Ideal) x0 x1 = Cert.Spec.logitsArr (Cert.Spec.merged x0) x1 := by
    funext i
    obtain ⟨r, v, rfl⟩ : ∃ (r : Fin 4096) (v : Fin 32000), i = ix2 r v := ⟨i 0, i 1, eq_ix2 i⟩
    rw [logits_eq_of x0 x1 h16 hx r v]
    rfl
  unfold val_main_v61 Cert.Spec.result
  rw [h60]

end Cert.ReferenceIdeal.RefValue

end
-- ==== Proof.lean ====
/-
  The certificate: a kernel program that approximates activations and weights by sixteen levels each and multiplies
  the approximations computes, on the extended reals, what its jnp reference computes.

  The common function is stated in Proof/Spec.lean.  The kernel program runs three kernels between two host lines:
  Proof/KRun.lean reads its result buffer off the run, Proof/KRegion0.lean … KRegion2.lean say what each kernel leaves
  in its result array (the blocks are restrictions of one whole-array function and tile the array), Proof/KChain.lean
  chains them, and Proof/PayWeights.lean, PayActs.lean, PayMatmul.lean read each kernel body's arithmetic at an entry.
  The reference is read one operation at a time: Proof/RefChunks.lean (the chunks and their two maxima),
  Proof/RefLevels.lean (boundaries, levels and steps), Proof/RefTail.lean (the weights and the product).
  The two sides meet without any hypothesis on the inputs: the only laws used are that dividing an extended real by
  the real 7, or by a power of two, is multiplying by its reciprocal, and that 2^(b − 13) is the reciprocal of 2^(13 − b).
-/
import proofs.«171524_j8117488190107_2_alg».proof.Defs
import proofs.«171524_j8117488190107_2_alg».proof.Proof.Gen.Kernel
import proofs.«171524_j8117488190107_2_alg».proof.Proof.Gen.Kernel.Frame
import proofs.«171524_j8117488190107_2_alg».proof.Proof.Gen.KernelIdeal
import proofs.«171524_j8117488190107_2_alg».proof.Proof.Gen.KernelIdeal.Frame
import proofs.«171524_j8117488190107_2_alg».proof.Proof.Gen.ReferenceIdeal
import proofs.«171524_j8117488190107_2_alg».proof.Proof.Gen.ReferenceIdeal.Run
import proofs.«171524_j8117488190107_2_alg».proof.Proof.Gen.ReferenceIdeal.Read
import proofs.«171524_j8117488190107_2_alg».proof.Proof.Gen.Pre_finite_inputs
import proofs.«171524_j8117488190107_2_alg».proof.Proof.KChain
import proofs.«171524_j8117488190107_2_alg».proof.Proof.PayWeights
import proofs.«171524_j8117488190107_2_alg».proof.Proof.PayActs
import proofs.«171524_j8117488190107_2_alg».proof.Proof.PayMatmul
import proofs.«171524_j8117488190107_2_alg».proof.Proof.RefChunks
import proofs.«171524_j8117488190107_2_alg».proof.Proof.RefLevels
import proofs.«171524_j8117488190107_2_alg».proof.Proof.RefTail
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two rewrites of the idealization: both name the f32 word nearest 1/7 as the rational 1/7. -/
theorem preserves : Cert.preserves_Kernel_KernelIdeal :=
  ⟨IdealRules.named_const.statement Cert.KernelIdeal.κ "inv_7" .f32 0x3E124925#32 ((1 / 7 : ℝ) : EReal) rfl,
   IdealRules.named_const.statement Cert.KernelIdeal.κ "inv_7" .f32 0x3E124925#32 ((1 / 7 : ℝ) : EReal) rfl⟩

/-- From memories that agree on the arguments both programs end with the specification's result. -/
theorem algebraic : Cert.algebraic_KernelIdeal_ReferenceIdeal := by
  intro m ρ m' ρ' _ hagree
  refine ⟨_, Cert.KernelIdeal.KValue.kernel_value m ρ Cert.KernelIdeal.Pay.pay0_apply Cert.KernelIdeal.Pay.pay1_apply
    Cert.KernelIdeal.Pay.pay2_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2]
  exact Cert.ReferenceIdeal.RefValue.result_eq_of _ _ (Cert.ReferenceIdeal.RefValue.chunks_apply _)
    (Cert.ReferenceIdeal.RefValue.xscale_eq_of _ (Cert.ReferenceIdeal.RefValue.colmax_eq _)
      (Cert.ReferenceIdeal.RefValue.chunkmax_eq _))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
